-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 76
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S1x128, .f32⟩
  | .hbm, ⟨43, _⟩ => ⟨S100000x128, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .bf16⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .bf16⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .bf16⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S1x128, .f32⟩
  | .hbm, ⟨75, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .bf16⟩
  | .local _ .vmem, ⟨16, _⟩ => ⟨S5000x128, .bf16⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .bf16⟩
  | .local _ .vmem, ⟨27, _⟩ => ⟨S5000x128, .bf16⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_c_6 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .bf16 = 32 ∨ (Rect.block (s := S100000x128) S5000x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The kernel program's run, with every buffer named at its contents after the last pallas_call.

  The frame certificate runs @main as six segments — three stretches of host operations, each followed by a
  pallas_call — and carries the contents of every buffer from one segment boundary to the next: `W1` after the first
  stretch, `W2` after the first call, and so on to `W6` after the third call.  Its closing step keeps only the argument
  arrays.  Kept here is the whole last boundary: after every weakly fair execution each buffer that outlives a call holds
  `W6` of it.  The result array and the arguments are then read off `W6`.
-/
import proofs.«146334_j5463198401302_2_alg».proof.Proof.FrameKI

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every buffer that outlives the calls ends
    at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result array and the eleven argument arrays read off the last boundary. -/
theorem run_named : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v51 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)
    (run_boundary m ρ)

end Cert.KernelIdeal.RunValue

end
-- ==== Proof.LibReciprocal.lean ====
/-
  Dividing by a number and multiplying by its reciprocal, on the extended reals.

  With the quotient that reads  x / y  as  x · y⁻¹  for every y other than zero (the inverse of an infinity being zero),
  multiplying by  1 / y  is dividing by  y : both are  x · y⁻¹ .  No finiteness of x or of y is needed, only y ≠ 0.  A
  divisor clamped from below by one, max d 1, is never zero.  The single-precision word 0x3F800000 denotes the number one.
  Mathlib and the ideal operations only.
-/
import Idealize.ShloMosaic.PureOps.Ideal
import Idealize.ShloMosaic.PureOps.Ideal.Laws

noncomputable section

namespace Cert.LibReciprocal

open Idealize.ShloMosaic

/-- The single-precision word of the number one denotes one. -/
theorem one_word : Ideal.ofBits .f32 0x3F800000#32 = (1 : EReal) := by
  simp [Ideal.ofBits, Ideal.ieee, -EReal.coe_mul]; norm_num

/-- Multiplying by the reciprocal of `y` is dividing by `y`, for every extended real `a` and every `y` other than zero
    (infinite `y` included: both sides are then `a * 0`). -/
theorem mul_recip (a y : EReal) (hy : y ≠ 0) : a * Ideal.div 1 y = Ideal.div a y := by
  unfold Ideal.div
  rw [if_neg hy, if_neg hy, one_mul]

/-- The same with the numerator spelt as the single-precision word of one. -/
theorem mul_recip_word (a y : EReal) (hy : y ≠ 0) :
    a * Ideal.div (Ideal.ofBits .f32 0x3F800000#32) y = Ideal.div a y := by
  rw [one_word, mul_recip a y hy]

/-- A maximum with the number one is not zero. -/
theorem max_one_ne_zero (d : EReal) : max d (Ideal.ofBits .f32 0x3F800000#32) ≠ 0 := by
  rw [one_word]
  have h : (0 : EReal) < max d 1 := lt_of_lt_of_le zero_lt_one (le_max_right d 1)
  exact ne_of_gt h

end Cert.LibReciprocal

end
-- ==== Proof.SageSpec.lean ====
/-
  One layer of the three-layer neighbour-averaging network, as a function of whole arrays over the extended reals,
  in the two arrangements the two programs use, and the law that joins them.

  A layer takes the neighbour sums `S` ([100000,128]: row p is the sum of the feature rows of p's in-neighbours), the
  node features `H`, two weight matrices `Wl`, `Wr` ([128,128]) and a bias, and a per-node divisor.  Entry (p, f) of its
  pre-activation is
      (sum over d of  mean(p, d) * Wl(d, f))  +  bias(f)  +  (sum over d of  H(p, d) * Wr(d, f)),
  where mean(p, d) is the neighbour sum S(p, d) brought to an average.  One program divides, mean = S(p, d) / dm(p);
  the other multiplies by a reciprocal computed once, mean = S(p, d) * (1 / dm(p)).  On the extended reals the quotient
  by any y other than zero is the product with the inverse of y, for infinite y too, so the two agree as soon as
  dm(p) is not zero; and dm(p) is a maximum with the number one, hence at least one.  No finiteness of any input enters.
-/
import Idealize.ShloMosaic.PureOps.Ideal
import Idealize.ShloMosaic.PureOps.Ideal.Laws
import Idealize.ShloMosaic.Lib.ValueIdx
import proofs.«146334_j5463198401302_2_alg».proof.Proof.LibReciprocal

noncomputable section

namespace Cert.Sage

open Idealize.ShloMosaic Idealize.ShloMosaic.ValueIdx Cert.LibReciprocal
open scoped BigOperators

abbrev Mat : Type := (⟨2, ![100000, 128]⟩ : Shape).Idx → EReal
abbrev Wt : Type := (⟨2, ![128, 128]⟩ : Shape).Idx → EReal
abbrev Col : Type := (⟨1, ![100000]⟩ : Shape).Idx → EReal
abbrev Bias : Type := (⟨1, ![128]⟩ : Shape).Idx → EReal
abbrev BiasRow : Type := (⟨2, ![1, 128]⟩ : Shape).Idx → EReal

/-- Entry (p, f) of a layer's pre-activation, the neighbour sums DIVIDED by the per-node divisor. -/
def pre (S : Mat) (dm : Col) (H : Mat) (Wl : Wt) (bl : Bias) (Wr : Wt) (p : Fin 100000) (f : Fin 128) : EReal :=
  (∑ d : Fin 128, Ideal.div (S (ix2 p d)) (dm (ix1 p)) * Wl (ix2 d f)) + bl (ix1 f)
    + ∑ d : Fin 128, H (ix2 p d) * Wr (ix2 d f)

/-- The same entry with the neighbour sums MULTIPLIED by a precomputed factor array `I` and the bias kept as a row. -/
def preMul (S I H : Mat) (Wl : Wt) (B : BiasRow) (Wr : Wt) (p : Fin 100000) (f : Fin 128) : EReal :=
  (∑ d : Fin 128, (S (ix2 p d) * I (ix2 p d)) * Wl (ix2 d f)) + B (ix2 (0 : Fin 1) f)
    + ∑ d : Fin 128, H (ix2 p d) * Wr (ix2 d f)

/-- When the factor array holds the reciprocal of a divisor that is nowhere zero, and the row holds the bias, the
    two arrangements are the same number. -/
theorem preMul_eq_pre (S I H : Mat) (Wl : Wt) (B : BiasRow) (Wr : Wt) (dm : Col) (bl : Bias)
    (hI : ∀ (p : Fin 100000) (d : Fin 128), I (ix2 p d) = Ideal.div 1 (dm (ix1 p)))
    (hdm : ∀ p : Fin 100000, dm (ix1 p) ≠ 0)
    (hB : ∀ f : Fin 128, B (ix2 (0 : Fin 1) f) = bl (ix1 f)) (p : Fin 100000) (f : Fin 128) :
    preMul S I H Wl B Wr p f = pre S dm H Wl bl Wr p f := by
  unfold preMul pre
  rw [hB f]
  refine congrArg (fun s => s + bl (ix1 f) + ∑ d : Fin 128, H (ix2 p d) * Wr (ix2 d f)) ?_
  refine Finset.sum_congr rfl fun d _ => ?_
  rw [hI p d, mul_recip _ _ (hdm p)]

/-- A layer without activation in the multiplied arrangement. -/
def linMul (S I H : Mat) (Wl : Wt) (B : BiasRow) (Wr : Wt) : Mat :=
  fun i => preMul S I H Wl B Wr (i 0) (i 1)

/-- A layer with the rectifier in the multiplied arrangement. -/
def actMul (S I H : Mat) (Wl : Wt) (B : BiasRow) (Wr : Wt) : Mat :=
  fun i => max (preMul S I H Wl B Wr (i 0) (i 1)) (Ideal.ofBits .f32 0x00000000#32)

/-- A layer without activation: the pre-activation at every index. -/
def lin (S : Mat) (dm : Col) (H : Mat) (Wl : Wt) (bl : Bias) (Wr : Wt) : Mat :=
  fun i => pre S dm H Wl bl Wr (i 0) (i 1)

/-- A layer with the rectifier: the larger of the pre-activation and zero, at every index. -/
def act (S : Mat) (dm : Col) (H : Mat) (Wl : Wt) (bl : Bias) (Wr : Wt) : Mat :=
  fun i => max (pre S dm H Wl bl Wr (i 0) (i 1)) (Ideal.ofBits .f32 0x00000000#32)

/-- The multiplied arrangement of a whole layer is the divided one, under the same three facts. -/
theorem linMul_eq_lin (S I H : Mat) (Wl : Wt) (B : BiasRow) (Wr : Wt) (dm : Col) (bl : Bias)
    (hI : ∀ (p : Fin 100000) (d : Fin 128), I (ix2 p d) = Ideal.div 1 (dm (ix1 p)))
    (hdm : ∀ p : Fin 100000, dm (ix1 p) ≠ 0)
    (hB : ∀ f : Fin 128, B (ix2 (0 : Fin 1) f) = bl (ix1 f)) :
    linMul S I H Wl B Wr = lin S dm H Wl bl Wr :=
  funext fun i => preMul_eq_pre S I H Wl B Wr dm bl hI hdm hB (i 0) (i 1)

theorem actMul_eq_act (S I H : Mat) (Wl : Wt) (B : BiasRow) (Wr : Wt) (dm : Col) (bl : Bias)
    (hI : ∀ (p : Fin 100000) (d : Fin 128), I (ix2 p d) = Ideal.div 1 (dm (ix1 p)))
    (hdm : ∀ p : Fin 100000, dm (ix1 p) ≠ 0)
    (hB : ∀ f : Fin 128, B (ix2 (0 : Fin 1) f) = bl (ix1 f)) :
    actMul S I H Wl B Wr = act S dm H Wl bl Wr :=
  funext fun i => congrArg (fun s => max s (Ideal.ofBits .f32 0x00000000#32))
    (preMul_eq_pre S I H Wl B Wr dm bl hI hdm hB (i 0) (i 1))

end Cert.Sage

end
-- ==== Proof.SharedChain.lean ====
/-
  The two functions of the edge list that both programs compute with the same host operations and that no step of the
  argument opens: the neighbour sums of a feature array, and the per-node divisor.

  The neighbour sums gather the feature rows at the edges' sources (a negative source counted from the end of the node
  axis) and scatter-add them to the edges' targets.  The in-degree is a scatter-add of ones along the targets, and the
  divisor is the larger of the in-degree and one.  All that is ever used of them is that the divisor is a maximum with
  the number one, hence not zero.
-/
import proofs.«146334_j5463198401302_2_alg».proof.ReferenceIdeal
import proofs.«146334_j5463198401302_2_alg».proof.Proof.Gen.ReferenceIdeal
import proofs.«146334_j5463198401302_2_alg».proof.Proof.SageSpec
import Idealize.ShloMosaic.PureOps.Ideal
import Idealize.ShloMosaic.Lib.Pipeline.Value
import Idealize.ShloMosaic.Lib.ValueIdx

noncomputable section

namespace Cert.Chain

open Cert.ReferenceIdeal Cert.ReferenceIdeal.Gen Cert.Sage Cert.LibReciprocal
open Idealize.ShloMosaic Idealize.ShloMosaic.ValueIdx

abbrev EdgeVec : Type := IVec S1600000 32
abbrev FMat : Type := FVec Ideal S100000x128 .f32
abbrev FCol : Type := FVec Ideal S100000 .f32

/-- The neighbour sums of `H` along edges with sources `src` and targets `dst`. -/
def aggOf (H : FMat) (src dst : EdgeVec) : FMat :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 H
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- Each node's in-degree: a scatter-add of ones along the targets. -/
def degOf (dst : EdgeVec) : FCol :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The number one at every node. -/
def oneCol : FCol := broadcastInDim S100000 ![] bcast_S_S100000 (constant (F := Ideal) S_ .f32 0x3F800000#32)

theorem oneCol_apply (i : S100000.Idx) : oneCol i = Ideal.ofBits .f32 0x3F800000#32 := by
  unfold oneCol
  exact (broadcastInDim_apply _ bcast_S_S100000 _ i ix0 (fun a => a.elim0)).trans (constant_apply _ _)

/-- The per-node divisor: the larger of the in-degree and one. -/
def divisorOf (dst : EdgeVec) : FCol := maximumf (F := Ideal) (φ := .f32) (degOf dst) oneCol

theorem divisorOf_apply (dst : EdgeVec) (i : S100000.Idx) :
    divisorOf dst i = max (degOf dst i) (Ideal.ofBits .f32 0x3F800000#32) := by
  unfold divisorOf
  rw [maximumf_apply, oneCol_apply]

/-- The divisor is nowhere zero: it is a maximum with one. -/
theorem divisorOf_ne_zero (dst : EdgeVec) (p : Fin 100000) : divisorOf dst (ix1 p) ≠ 0 := by
  rw [divisorOf_apply]
  generalize degOf dst (ix1 p) = d
  exact max_one_ne_zero d

end Cert.Chain

end
-- ==== Proof.BoundaryA.lean ====
/-
  What the first pallas_call finds: the buffers after the first stretch of host operations.

  The first stretch splits the edge list into its source and target vectors, counts each node's in-degree by a
  scatter-add of ones along the targets, takes the reciprocal of the larger of that count and one and spreads it over
  the 128 features, gathers the feature rows at the sources and scatter-adds them to the targets, and recasts the
  first bias vector as a row.  It writes no argument array.  Each buffer below is read off the fold of the stretch's
  operations over the launch memory.
-/
import proofs.«146334_j5463198401302_2_alg».proof.Proof.FrameKI
import proofs.«146334_j5463198401302_2_alg».proof.Proof.SharedChain
import Idealize.ShloMosaic.Lib.StableHlo.Run
import Idealize.ShloMosaic.PureOps.Ideal

set_option maxRecDepth 16384
set_option maxHeartbeats 1000000

noncomputable section

namespace Cert.KernelIdeal.Boundary

open Cert.KernelIdeal Cert.KernelIdeal.Gen Cert.KernelIdeal.GenP Cert.Chain
open Idealize.ShloMosaic Idealize.ShloMosaic.TcCoe Idealize.SL.Sem Idealize.ShloMosaic.StableHlo

abbrev Edges : Type := (⟨S2x1600000, .i32⟩ : BufTy).Contents (Elt Ideal)

/-- The edges' sources: row 0 of the edge list. -/
def srcOf (E : Edges) : EdgeVec :=
  shapeCast S1600000 (extractStridedSlice S1x1600000 ![0, 0] E slices_S2x1600000_S1x1600000_0_0) shapeCasts_S1x1600000_S1600000

/-- The edges' targets: row 1 of the edge list. -/
def dstOf (E : Edges) : EdgeVec :=
  shapeCast S1600000 (extractStridedSlice S1x1600000 ![1, 0] E slices_S2x1600000_S1x1600000_1_0) shapeCasts_S1x1600000_S1600000

/-- The per-node factor spread over the features: one over the divisor, as a [100000,128] array. -/
def recipOf (dv : FVec Ideal S100000 .f32) : FVec Ideal S100000x128 .f32 :=
  broadcastInDim S100000x128 ![0, 1] bcast_S100000x1_S100000x128_0_1
    (broadcastInDim S100000x1 ![0] bcast_S100000_S100000x1_0
      (Host.divf (F := Ideal) (φ := .f32)
        (broadcastInDim S100000 ![] bcast_S_S100000 (constant (F := Ideal) S_ .f32 0x3F800000#32)) dv))

/-- A bias vector recast as a one-row matrix. -/
def rowOf (b : FVec Ideal S128 .f32) : FVec Ideal S1x128 .f32 := shapeCast S1x128 b shapeCasts_S128_S1x128

variable (m : (ℓ : Loc nD τ sig) → Buf (Elt Ideal) ℓ) (ρ : Dev nD → PrngReg)

theorem first_sources (c : Dev nD) : V1 m ρ c main_v1 = srcOf (m ((c.tc : Thread nD τ).loc main_arg1)) := by
  show StableHlo.after hostOps0 (W0 m ρ c) (Proc.devRef .tc main_v1) = _
  after_results_simp <;> rfl

theorem first_targets (c : Dev nD) : V1 m ρ c main_v3 = dstOf (m ((c.tc : Thread nD τ).loc main_arg1)) := by
  show StableHlo.after hostOps0 (W0 m ρ c) (Proc.devRef .tc main_v3) = _
  after_results_simp <;> rfl

theorem first_factor (c : Dev nD) : V1 m ρ c main_v13 = recipOf (divisorOf (dstOf (m ((c.tc : Thread nD τ).loc main_arg1)))) := by
  show StableHlo.after hostOps0 (W0 m ρ c) (Proc.devRef .tc main_v13) = _
  after_results_simp <;> rfl

theorem first_sums (c : Dev nD) : V1 m ρ c main_v23 = aggOf (m ((c.tc : Thread nD τ).loc main_arg0)) (srcOf (m ((c.tc : Thread nD τ).loc main_arg1))) (dstOf (m ((c.tc : Thread nD τ).loc main_arg1))) := by
  show StableHlo.after hostOps0 (W0 m ρ c) (Proc.devRef .tc main_v23) = _
  after_results_simp <;> rfl

theorem first_bias0 (c : Dev nD) : V1 m ρ c main_v24 = rowOf (m ((c.tc : Thread nD τ).loc main_arg3)) := by
  show StableHlo.after hostOps0 (W0 m ρ c) (Proc.devRef .tc main_v24) = _
  after_results_simp <;> rfl

theorem first_arg0 (c : Dev nD) : V1 m ρ c main_arg0 = m ((c.tc : Thread nD τ).loc main_arg0) := by
  show StableHlo.after hostOps0 (W0 m ρ c) (Proc.devRef .tc main_arg0) = _
  after_results_simp <;> rfl

theorem first_arg2 (c : Dev nD) : V1 m ρ c main_arg2 = m ((c.tc : Thread nD τ).loc main_arg2) := by
  show StableHlo.after hostOps0 (W0 m ρ c) (Proc.devRef .tc main_arg2) = _
  after_results_simp <;> rfl

theorem first_arg4 (c : Dev nD) : V1 m ρ c main_arg4 = m ((c.tc : Thread nD τ).loc main_arg4) := by
  show StableHlo.after hostOps0 (W0 m ρ c) (Proc.devRef .tc main_arg4) = _
  after_results_simp <;> rfl

theorem first_arg5 (c : Dev nD) : V1 m ρ c main_arg5 = m ((c.tc : Thread nD τ).loc main_arg5) := by
  show StableHlo.after hostOps0 (W0 m ρ c) (Proc.devRef .tc main_arg5) = _
  after_results_simp <;> rfl

theorem first_arg6 (c : Dev nD) : V1 m ρ c main_arg6 = m ((c.tc : Thread nD τ).loc main_arg6) := by
  show StableHlo.after hostOps0 (W0 m ρ c) (Proc.devRef .tc main_arg6) = _
  after_results_simp <;> rfl

theorem first_arg7 (c : Dev nD) : V1 m ρ c main_arg7 = m ((c.tc : Thread nD τ).loc main_arg7) := by
  show StableHlo.after hostOps0 (W0 m ρ c) (Proc.devRef .tc main_arg7) = _
  after_results_simp <;> rfl

theorem first_arg8 (c : Dev nD) : V1 m ρ c main_arg8 = m ((c.tc : Thread nD τ).loc main_arg8) := by
  show StableHlo.after hostOps0 (W0 m ρ c) (Proc.devRef .tc main_arg8) = _
  after_results_simp <;> rfl

theorem first_arg9 (c : Dev nD) : V1 m ρ c main_arg9 = m ((c.tc : Thread nD τ).loc main_arg9) := by
  show StableHlo.after hostOps0 (W0 m ρ c) (Proc.devRef .tc main_arg9) = _
  after_results_simp <;> rfl

theorem first_arg10 (c : Dev nD) : V1 m ρ c main_arg10 = m ((c.tc : Thread nD τ).loc main_arg10) := by
  show StableHlo.after hostOps0 (W0 m ρ c) (Proc.devRef .tc main_arg10) = _
  after_results_simp <;> rfl

end Cert.KernelIdeal.Boundary

end
-- ==== Proof.LibInnerProducts.lean ====
/-
  A matrix product and a sum along the last axis, read at an index on the extended reals.

  At the ideal values a matrix product of an `[M, K]` matrix with a `[K, N]` matrix, accumulated into zero, holds at
  `(p, f)` the inner product of row `p` of the left factor with column `f` of the right factor: the sum over `d` of
  `a (p, d) · w (d, f)`, with no rounding and no order of summation left in it. A sum of an `[a, b, c]` array along its
  last axis holds at `(p, q)` the sum over `f` of the array at `(p, q, f)`. Both are the library's general statements
  with the contraction index and the inserted coordinate written as a plain `Fin`.
-/
import Idealize.ShloMosaic.PureOps.Ideal.Laws
import Idealize.ShloMosaic.Lib.ValueIdx

noncomputable section

namespace Idealize.ShloMosaic.InnerProducts

open Idealize.ShloMosaic Idealize.ShloMosaic.ValueIdx
open scoped BigOperators

/-- An `[M, K]` by `[K, N]` matrix product into the zero accumulator is, at `(p, f)`, the inner product of row `p` of
    the left factor with column `f` of the right factor. `D` is any record of the plain dimension numbers (contract the
    left factor's columns with the right factor's rows, no batch axis). -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    matmul D prec a w (constant (F := Ideal) ⟨2, ![M, N]⟩ .f32 0x00000000#32) (ix2 p f)
      = ∑ d : Fin K, a (ix2 p d) * w (ix2 d f) := by
  subst hD
  refine (Ideal.matmul_constant_zero_apply (DotDims.plain M K N) prec a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- The host's `dot_general` with the same plain dimension numbers is the same inner product (it has no accumulator). -/
theorem dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (f : Fin N) :
    Host.dotGeneral D prec a w (ix2 p f) = ∑ d : Fin K, a (ix2 p d) * w (ix2 d f) := by
  subst hD
  refine (Ideal.dotGeneral_apply (DotDims.plain M K N) prec .single a w (ix2 p f)).trans ?_
  rw [← Equiv.sum_comp (contrEquiv1 (DotDims.plain M K N) K rfl rfl).symm]
  refine Finset.sum_congr rfl fun d _ => ?_
  have hd := contrEquiv1_symm_val (DotDims.plain M K N) K rfl rfl d
  have el : (DotDims.plain M K N).lhsIdx (ix2 p f) ((contrEquiv1 (DotDims.plain M K N) K rfl rfl).symm d) = ix2 p d :=
    funext fun ax => Fin.ext (by
      match ax with
      | ⟨0, _⟩ => rfl
      | ⟨1, _⟩ => exact ((DotDims.plain M K N).lhsIdx_val_of_single rfl (ix2 p f) _).trans hd)
  have er : (DotDims.plain M K N).rhsIdx (ix2 p f) ((contrEquiv1 (DotDims.plain M K N) K rfl rfl).symm d) = ix2 d f :=
    funext fun ax => Fin.ext (by
      match ax with
      | ⟨0, _⟩ => exact ((DotDims.plain M K N).rhsIdx_val_of_single rfl (ix2 p f) _).trans hd
      | ⟨1, _⟩ => rfl)
  rw [el, er]

/-- A float sum of an `[a, b, c]` array along its last axis is, at `(p, q)`, the sum over `f` of the array at
    `(p, q, f)`. -/
theorem lane_sum_apply {a b c : ℕ} {φ : FTy} (x : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (q : Fin b) :
    multiReduction .add [2] ⟨2, ![a, b]⟩ x acc h hφ hacc (ix2 p q) = ∑ f : Fin c, x (ix3 p q f) := by
  refine (Ideal.multiReduction_add_single x acc h hφ hacc (ix2 p q)).trans ?_
  show ∑ f : Fin c, x (h.lift (ix2 p q) f) = ∑ f : Fin c, x (ix3 p q f)
  refine Finset.sum_congr rfl fun f _ => congrArg x (funext fun ax => Fin.ext ?_)
  match ax with
  | ⟨0, _⟩ => rfl
  | ⟨1, _⟩ => rfl
  | ⟨2, _⟩ => rfl

end Idealize.ShloMosaic.InnerProducts

end
-- ==== Proof.PayloadAt.lean ====
/-
  The three kernel bodies read at an index.

  Each body takes a block of 5000 rows: the neighbour sums `x0`, the per-node factor `x1`, the node features `x2`
  (all [5000,128]), two weight matrices `x3`, `x5` ([128,128]) and a bias row `x4` ([1,128]).  At the ideal values a
  change of float format is the identity and a matrix product into the zero accumulator is the exact inner product,
  so entry (r, f) of what the body stores is
      (sum over d of (x0(r,d) * x1(r,d)) * x3(d,f))  +  x4(0,f)  +  (sum over d of x2(r,d) * x5(d,f)),
  followed in the first two bodies by the maximum with zero.  Row r of the result depends on row r of the three
  row blocks only, and on all of both weight matrices.
-/
import proofs.«146334_j5463198401302_2_alg».proof.Proof.Gen.KernelIdeal.Skeleton
import proofs.«146334_j5463198401302_2_alg».proof.Proof.LibInnerProducts
import proofs.«146334_j5463198401302_2_alg».proof.Proof.SageSpec
import Idealize.ShloMosaic.Lib.ValueLayout
import Idealize.ShloMosaic.Lib.ValueIdx
import Idealize.ShloMosaic.Lib.Pipeline.Value

noncomputable section

namespace Cert.KernelIdeal.PayloadAt

open Cert.KernelIdeal Cert.KernelIdeal.Gen Idealize.ShloMosaic Idealize.ShloMosaic.ValueIdx
open scoped BigOperators

/-- The bodies' matrix products contract the left factor's columns with the right factor's rows, no batch axis. -/
theorem dot_plain : dot_S5000x128_S128x128_S5000x128_1_0_0_1_n_n = DotDims.plain 5000 128 128 := rfl

/-- A [5000,128] by [128,128] product into the zero accumulator, at (r, f): row r against column f. -/
theorem product_at {φ₁ φ₂ : FTy} (a : FVec Ideal S5000x128 φ₁) (w : FVec Ideal S128x128 φ₂) (r : Fin 5000) (f : Fin 128) :
    matmul dot_S5000x128_S128x128_S5000x128_1_0_0_1_n_n none a w (constant (F := Ideal) S5000x128 .f32 0x00000000#32) (ix2 r f)
      = ∑ d : Fin 128, a (ix2 r d) * w (ix2 d f) :=
  InnerProducts.matmul_zero_apply _ dot_plain none a w r f

/-- The first body (features in single precision, rectified) at (r, f). -/
theorem first_at (x0 x1 x2 : Vec Ideal S5000x128 .f32) (x3 x5 : Vec Ideal S128x128 .f32) (x4 : Vec Ideal S1x128 .f32)
    (r : Fin 5000) (f : Fin 128) :
    k0_pay1 (F := Ideal) x0 x1 x2 x3 x5 x4 (ix2 r f)
      = max ((∑ d : Fin 128, (x0 (ix2 r d) * x1 (ix2 r d)) * x3 (ix2 d f)) + x4 (ix2 (0 : Fin 1) f)
              + ∑ d : Fin 128, x2 (ix2 r d) * x5 (ix2 d f)) (Ideal.ofBits .f32 0x00000000#32) := by
  unfold k0_pay1
  show max ((matmul dot_S5000x128_S128x128_S5000x128_1_0_0_1_n_n none
                (truncf .bf16 (mulf (shapeCast S5000x128 x0 _) (shapeCast S5000x128 x1 _)) _) (truncf .bf16 x3 _)
                (constant (F := Ideal) S5000x128 .f32 0x00000000#32) (ix2 r f)
              + broadcastTo S5000x128 (shapeCast S1x128 x4 _) _ (ix2 r f))
            + matmul dot_S5000x128_S128x128_S5000x128_1_0_0_1_n_n none (truncf .bf16 x2 _) (truncf .bf16 x5 _)
                (constant (F := Ideal) S5000x128 .f32 0x00000000#32) (ix2 r f))
          (Ideal.ofBits .f32 0x00000000#32) = _
  rw [product_at, product_at, broadcastTo_1b_ab_apply, shapeCast_self, shapeCast_self, shapeCast_self]
  rfl

/-- The second body (features in half precision, rectified) at (r, f). -/
theorem second_at (x0 x1 : Vec Ideal S5000x128 .f32) (x2 : Vec Ideal S5000x128 .bf16) (x3 x5 : Vec Ideal S128x128 .f32)
    (x4 : Vec Ideal S1x128 .f32) (r : Fin 5000) (f : Fin 128) :
    k1_pay1 (F := Ideal) x0 x1 x2 x3 x5 x4 (ix2 r f)
      = max ((∑ d : Fin 128, (x0 (ix2 r d) * x1 (ix2 r d)) * x3 (ix2 d f)) + x4 (ix2 (0 : Fin 1) f)
              + ∑ d : Fin 128, x2 (ix2 r d) * x5 (ix2 d f)) (Ideal.ofBits .f32 0x00000000#32) := by
  unfold k1_pay1
  show max ((matmul dot_S5000x128_S128x128_S5000x128_1_0_0_1_n_n none
                (truncf .bf16 (mulf (shapeCast S5000x128 x0 _) (shapeCast S5000x128 x1 _)) _) (truncf .bf16 x3 _)
                (constant (F := Ideal) S5000x128 .f32 0x00000000#32) (ix2 r f)
              + broadcastTo S5000x128 (shapeCast S1x128 x4 _) _ (ix2 r f))
            + matmul dot_S5000x128_S128x128_S5000x128_1_0_0_1_n_n none (shapeCast S5000x128 x2 _) (truncf .bf16 x5 _)
                (constant (F := Ideal) S5000x128 .f32 0x00000000#32) (ix2 r f))
          (Ideal.ofBits .f32 0x00000000#32) = _
  rw [product_at, product_at, broadcastTo_1b_ab_apply, shapeCast_self, shapeCast_self, shapeCast_self, shapeCast_self]
  rfl

/-- The third body (features in half precision, no activation) at (r, f). -/
theorem third_at (x0 x1 : Vec Ideal S5000x128 .f32) (x2 : Vec Ideal S5000x128 .bf16) (x3 x5 : Vec Ideal S128x128 .f32)
    (x4 : Vec Ideal S1x128 .f32) (r : Fin 5000) (f : Fin 128) :
    k2_pay1 (F := Ideal) x0 x1 x2 x3 x5 x4 (ix2 r f)
      = (∑ d : Fin 128, (x0 (ix2 r d) * x1 (ix2 r d)) * x3 (ix2 d f)) + x4 (ix2 (0 : Fin 1) f)
              + ∑ d : Fin 128, x2 (ix2 r d) * x5 (ix2 d f) := by
  unfold k2_pay1
  show (matmul dot_S5000x128_S128x128_S5000x128_1_0_0_1_n_n none
                (truncf .bf16 (mulf (shapeCast S5000x128 x0 _) (shapeCast S5000x128 x1 _)) _) (truncf .bf16 x3 _)
                (constant (F := Ideal) S5000x128 .f32 0x00000000#32) (ix2 r f)
              + broadcastTo S5000x128 (shapeCast S1x128 x4 _) _ (ix2 r f))
            + matmul dot_S5000x128_S128x128_S5000x128_1_0_0_1_n_n none (shapeCast S5000x128 x2 _) (truncf .bf16 x5 _)
                (constant (F := Ideal) S5000x128 .f32 0x00000000#32) (ix2 r f) = _
  rw [product_at, product_at, broadcastTo_1b_ab_apply, shapeCast_self, shapeCast_self, shapeCast_self, shapeCast_self]
  rfl

/-! ## A body's entry as a layer's entry

  When row `r` of each row block is row `p` of its array, and the weight and bias blocks are the whole arrays, entry
  (r, f) of what the body stores is entry (p, f) of the layer of the whole arrays. -/

open Cert.Sage

theorem first_point (A I X : Mat) (Wl Wr : Wt) (B : BiasRow)
    (x0 x1 x2 : Vec Ideal S5000x128 .f32) (x3 x5 : Vec Ideal S128x128 .f32) (x4 : Vec Ideal S1x128 .f32)
    (r : Fin 5000) (f : Fin 128) (p : Fin 100000)
    (h0 : ∀ d : Fin 128, x0 (ix2 r d) = A (ix2 p d)) (h1 : ∀ d : Fin 128, x1 (ix2 r d) = I (ix2 p d))
    (h2 : ∀ d : Fin 128, x2 (ix2 r d) = X (ix2 p d)) (h3 : ∀ d : Fin 128, x3 (ix2 d f) = Wl (ix2 d f))
    (h5 : ∀ d : Fin 128, x5 (ix2 d f) = Wr (ix2 d f)) (h4 : x4 (ix2 (0 : Fin 1) f) = B (ix2 (0 : Fin 1) f)) :
    k0_pay1 (F := Ideal) x0 x1 x2 x3 x5 x4 (ix2 r f) = max (preMul A I X Wl B Wr p f) (Ideal.ofBits .f32 0x00000000#32) := by
  rw [first_at]
  unfold preMul
  simp only [h0, h1, h2, h3, h5, h4]

theorem second_point (A I X : Mat) (Wl Wr : Wt) (B : BiasRow)
    (x0 x1 : Vec Ideal S5000x128 .f32) (x2 : Vec Ideal S5000x128 .bf16) (x3 x5 : Vec Ideal S128x128 .f32) (x4 : Vec Ideal S1x128 .f32)
    (r : Fin 5000) (f : Fin 128) (p : Fin 100000)
    (h0 : ∀ d : Fin 128, x0 (ix2 r d) = A (ix2 p d)) (h1 : ∀ d : Fin 128, x1 (ix2 r d) = I (ix2 p d))
    (h2 : ∀ d : Fin 128, x2 (ix2 r d) = X (ix2 p d)) (h3 : ∀ d : Fin 128, x3 (ix2 d f) = Wl (ix2 d f))
    (h5 : ∀ d : Fin 128, x5 (ix2 d f) = Wr (ix2 d f)) (h4 : x4 (ix2 (0 : Fin 1) f) = B (ix2 (0 : Fin 1) f)) :
    k1_pay1 (F := Ideal) x0 x1 x2 x3 x5 x4 (ix2 r f) = max (preMul A I X Wl B Wr p f) (Ideal.ofBits .f32 0x00000000#32) := by
  rw [second_at]
  unfold preMul
  simp only [h0, h1, h2, h3, h5, h4]

theorem third_point (A I X : Mat) (Wl Wr : Wt) (B : BiasRow)
    (x0 x1 : Vec Ideal S5000x128 .f32) (x2 : Vec Ideal S5000x128 .bf16) (x3 x5 : Vec Ideal S128x128 .f32) (x4 : Vec Ideal S1x128 .f32)
    (r : Fin 5000) (f : Fin 128) (p : Fin 100000)
    (h0 : ∀ d : Fin 128, x0 (ix2 r d) = A (ix2 p d)) (h1 : ∀ d : Fin 128, x1 (ix2 r d) = I (ix2 p d))
    (h2 : ∀ d : Fin 128, x2 (ix2 r d) = X (ix2 p d)) (h3 : ∀ d : Fin 128, x3 (ix2 d f) = Wl (ix2 d f))
    (h5 : ∀ d : Fin 128, x5 (ix2 d f) = Wr (ix2 d f)) (h4 : x4 (ix2 (0 : Fin 1) f) = B (ix2 (0 : Fin 1) f)) :
    k2_pay1 (F := Ideal) x0 x1 x2 x3 x5 x4 (ix2 r f) = preMul A I X Wl B Wr p f := by
  rw [third_at]
  unfold preMul
  simp only [h0, h1, h2, h3, h5, h4]

end Cert.KernelIdeal.PayloadAt

end
-- ==== Proof.ArrayFirst.lean ====
/-
  The first pallas_call's result array, as one function of the arrays the call finds.

  The call runs over 20 grid points; point t stages rows 5000·t … 5000·t + 4999 of the neighbour sums, of the per-node
  factor and of the node features, and the two weight matrices and the bias row whole, and writes back the same rows of
  the result.  Row r of a block is row 5000·t + r of its array, so what point t writes back is rows 5000·t … of the
  layer of the WHOLE arrays (a row of the layer depends on the same row of the three row arrays only); the twenty
  blocks tile the 100000 rows, so the result array is that layer.  The arrays are the contents `V` the call is entered
  with, a parameter here.
-/
import proofs.«146334_j5463198401302_2_alg».proof.Proof.FrameKI
import proofs.«146334_j5463198401302_2_alg».proof.Proof.PayloadAt
import proofs.«146334_j5463198401302_2_alg».proof.Proof.SageSpec
import Idealize.ShloMosaic.Lib.Pipeline.Value
import Idealize.ShloMosaic.Lib.ValueIdx

set_option maxRecDepth 16384

noncomputable section

namespace Cert.KernelIdeal.ArrayFirst

open Cert.KernelIdeal Cert.KernelIdeal.Gen Cert.KernelIdeal.GenP Cert.KernelIdeal.PayloadAt Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has twenty points. -/
theorem lt20 (t : Fin cfg0.N) : t.val < 20 := by
  have h := t.isLt
  have hN : cfg0.N = 20 := N_0
  omega

/-- Row `r` of point `n`'s block is row `5000·n + r` of the array. -/
def rowAt (n : Nat) (hn : n < 20) (r : Fin 5000) : Fin 100000 := ⟨5000 * n + r.val, by have := r.isLt; omega⟩

/-- The printed index maps over the twenty points: the three row windows and the result window sit at block row `t`,
    the weight and bias windows at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of the layer of the whole arrays. -/
theorem flushed_eq (c : Dev nD) (t : Fin cfg0.N) :
    (dat0 V c).flushed 6 t = ((cfg0.win 6).blk t).view.read (Elt Ideal) (actMul (V c main_v23) (V c main_v13) (V c main_arg0) (V c main_arg2) (V c main_v24) (V c main_arg4)) := by
  show (cfg0.win 6).cut (grid0.coords t) ((dat0 V c).after 6 t) = _
  rw [after0_6]
  unfold out0_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := index_facts t
  refine funext fun (j : S5000x128.Idx) => ?_
  obtain ⟨r, f, rfl⟩ : ∃ (r : Fin 5000) (f : Fin 128), j = ix2 r f := ⟨j 0, j 1, eq_ix2 j⟩
  show k0_pay1 (F := Ideal) (iblk0 V c 0 t) (iblk0 V c 1 t) (iblk0 V c 2 t) (iblk0 V c 3 t) (iblk0 V c 5 t)
      (iblk0 V c 4 t) (ix2 r f) = actMul (V c main_v23) (V c main_v13) (V c main_arg0) (V c main_arg2) (V c main_v24) (V c main_arg4)
        (((cfg0.win 6).blk t).view.emb (ix2 r f))
  have hrow : ((cfg0.win 6).blk t).view.emb (ix2 r f) = ix2 (rowAt t.val (lt20 t) r) f :=
    funext fun a => Fin.ext (by
      match a with
      | ⟨0, _⟩ => show win0_6.index t (0 : Fin 2) * 5000 + 1 * r.val = 5000 * t.val + r.val; omega
      | ⟨1, _⟩ => show win0_6.index t (1 : Fin 2) * 128 + 1 * f.val = f.val; omega)
  rw [hrow]
  refine first_point (V c main_v23) (V c main_v13) (V c main_arg0) (V c main_arg2) (V c main_arg4) (V c main_v24)
    (iblk0 V c 0 t) (iblk0 V c 1 t) (iblk0 V c 2 t) (iblk0 V c 3 t) (iblk0 V c 5 t) (iblk0 V c 4 t)
    r f (rowAt t.val (lt20 t) r) ?_ ?_ ?_ ?_ ?_ ?_
  · intro d
    show V c main_v23 (((cfg0.win 0).blk t).view.emb (ix2 r d)) = V c main_v23 (ix2 (rowAt t.val (lt20 t) r) d)
    refine congrArg (V c main_v23) (funext fun a => Fin.ext ?_)
    match a with
    | ⟨0, _⟩ => show win0_0.index t (0 : Fin 2) * 5000 + 1 * r.val = 5000 * t.val + r.val; omega
    | ⟨1, _⟩ => show win0_0.index t (1 : Fin 2) * 128 + 1 * d.val = d.val; omega
  · intro d
    show V c main_v13 (((cfg0.win 1).blk t).view.emb (ix2 r d)) = V c main_v13 (ix2 (rowAt t.val (lt20 t) r) d)
    refine congrArg (V c main_v13) (funext fun a => Fin.ext ?_)
    match a with
    | ⟨0, _⟩ => show win0_1.index t (0 : Fin 2) * 5000 + 1 * r.val = 5000 * t.val + r.val; omega
    | ⟨1, _⟩ => show win0_1.index t (1 : Fin 2) * 128 + 1 * d.val = d.val; omega
  · intro d
    show V c main_arg0 (((cfg0.win 2).blk t).view.emb (ix2 r d)) = V c main_arg0 (ix2 (rowAt t.val (lt20 t) r) d)
    refine congrArg (V c main_arg0) (funext fun a => Fin.ext ?_)
    match a with
    | ⟨0, _⟩ => show win0_2.index t (0 : Fin 2) * 5000 + 1 * r.val = 5000 * t.val + r.val; omega
    | ⟨1, _⟩ => show win0_2.index t (1 : Fin 2) * 128 + 1 * d.val = d.val; omega
  · intro d
    show V c main_arg2 (((cfg0.win 3).blk t).view.emb (ix2 d f)) = V c main_arg2 (ix2 d f)
    refine congrArg (V c main_arg2) (funext fun a => Fin.ext ?_)
    match a with
    | ⟨0, _⟩ => show win0_3.index t (0 : Fin 2) * 128 + 1 * d.val = d.val; omega
    | ⟨1, _⟩ => show win0_3.index t (1 : Fin 2) * 128 + 1 * f.val = f.val; omega
  · intro d
    show V c main_arg4 (((cfg0.win 5).blk t).view.emb (ix2 d f)) = V c main_arg4 (ix2 d f)
    refine congrArg (V c main_arg4) (funext fun a => Fin.ext ?_)
    match a with
    | ⟨0, _⟩ => show win0_5.index t (0 : Fin 2) * 128 + 1 * d.val = d.val; omega
    | ⟨1, _⟩ => show win0_5.index t (1 : Fin 2) * 128 + 1 * f.val = f.val; omega
  · show V c main_v24 (((cfg0.win 4).blk t).view.emb (ix2 (0 : Fin 1) f)) = V c main_v24 (ix2 (0 : Fin 1) f)
    refine congrArg (V c main_v24) (funext fun a => Fin.ext ?_)
    match a with
    | ⟨0, _⟩ => show win0_4.index t (0 : Fin 2) * 1 + 1 * 0 = 0; omega
    | ⟨1, _⟩ => show win0_4.index t (1 : Fin 2) * 128 + 1 * f.val = f.val; omega

/-- An index of the result array is in point `t`'s block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v25).slice (win0_6.rect t)).set ↔ _
  rw [View.set_slice_whole, Rect.mem_set_unit]
  exact Iff.rfl

/-- Row `i` lies in the block of point `i / 5000`: the twenty blocks cover the array. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  have hq : (i 0).val / 5000 < cfg0.N := by omega
  obtain ⟨e00, e01, e10, e11, e20, e21, e30, e31, e40, e41, e50, e51, e60, e61⟩ := index_facts ⟨(i 0).val / 5000, hq⟩
  refine ⟨⟨(i 0).val / 5000, hq⟩, flush0_6 _, ?_⟩
  rw [mem_block]
  intro a
  match a with
  | ⟨0, _⟩ =>
    show win0_6.index ⟨(i 0).val / 5000, hq⟩ (0 : Fin 2) * 5000 ≤ (i 0).val
      ∧ (i 0).val < win0_6.index ⟨(i 0).val / 5000, hq⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hq⟩ (1 : Fin 2) * 128 ≤ (i 1).val
      ∧ (i 1).val < win0_6.index ⟨(i 0).val / 5000, hq⟩ (1 : Fin 2) * 128 + 128
    rw [e61]
    omega

/-- THE RESULT ARRAY of the first call: the layer of the arrays the call is entered with. -/
theorem array_eq (c : Dev nD) : (dat0 V c).arrAt 6 cfg0.N = actMul (V c main_v23) (V c main_v13) (V c main_arg0) (V c main_arg2) (V c main_v24) (V c main_arg4) :=
  (dat0 V c).arrAt_eq_of_cover 6 _ (fun t _ => flushed_eq V c t) covered

end Cert.KernelIdeal.ArrayFirst

end
-- ==== Proof.BoundaryB.lean ====
/-
  From the first pallas_call to the second: the first call's result, the buffers it leaves alone, and the second
  stretch of host operations.

  The first call writes its result array and nothing else that is read later; every other buffer keeps what the first
  stretch left.  The second stretch gathers the rows of the first call's result at the sources and scatter-adds them
  to the targets (the same operations as in the first stretch, on the new features) and recasts the second bias
  vector as a row.
-/
import proofs.«146334_j5463198401302_2_alg».proof.Proof.BoundaryA
import proofs.«146334_j5463198401302_2_alg».proof.Proof.ArrayFirst
import Idealize.ShloMosaic.Lib.StableHlo.Run
import Idealize.ShloMosaic.PureOps.Ideal

set_option maxRecDepth 16384
set_option maxHeartbeats 1000000

noncomputable section

namespace Cert.KernelIdeal.Boundary

open Cert.KernelIdeal Cert.KernelIdeal.Gen Cert.KernelIdeal.GenP Cert.Chain Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- The first call's result array is the rectified layer of the arrays the call finds. -/
theorem after_first (c : Dev nD) :
    V2 m ρ c main_v25 = actMul (V1 m ρ c main_v23) (V1 m ρ c main_v13) (V1 m ρ c main_arg0) (V1 m ρ c main_arg2)
      (V1 m ρ c main_v24) (V1 m ρ c main_arg4) :=
  (W2_arr m ρ c 6).trans (Cert.KernelIdeal.ArrayFirst.array_eq (V1 m ρ) c)

theorem carry0_v1 (c : Dev nD) : V2 m ρ c main_v1 = V1 m ρ c main_v1 := W2_of_ne m ρ c main_v1 (by decide)
theorem carry0_v3 (c : Dev nD) : V2 m ρ c main_v3 = V1 m ρ c main_v3 := W2_of_ne m ρ c main_v3 (by decide)
/-- The factor array is an input window of the call: staged, never written back. -/
theorem carry0_v13 (c : Dev nD) : V2 m ρ c main_v13 = V1 m ρ c main_v13 :=
  (W2_arr m ρ c 1).trans (((dat0 (V1 m ρ) c).arrAt_in 1 rfl _).trans (A_eq0 (V1 m ρ) c 1))
theorem carry0_arg5 (c : Dev nD) : V2 m ρ c main_arg5 = V1 m ρ c main_arg5 := W2_of_ne m ρ c main_arg5 (by decide)
theorem carry0_arg6 (c : Dev nD) : V2 m ρ c main_arg6 = V1 m ρ c main_arg6 := W2_of_ne m ρ c main_arg6 (by decide)
theorem carry0_arg7 (c : Dev nD) : V2 m ρ c main_arg7 = V1 m ρ c main_arg7 := W2_of_ne m ρ c main_arg7 (by decide)
theorem carry0_arg8 (c : Dev nD) : V2 m ρ c main_arg8 = V1 m ρ c main_arg8 := W2_of_ne m ρ c main_arg8 (by decide)
theorem carry0_arg9 (c : Dev nD) : V2 m ρ c main_arg9 = V1 m ρ c main_arg9 := W2_of_ne m ρ c main_arg9 (by decide)
theorem carry0_arg10 (c : Dev nD) : V2 m ρ c main_arg10 = V1 m ρ c main_arg10 := W2_of_ne m ρ c main_arg10 (by decide)

theorem second_v36 (c : Dev nD) : V3 m ρ c main_v36 = aggOf (V2 m ρ c main_v25) (V2 m ρ c main_v1) (V2 m ρ c main_v3) := by
  show StableHlo.after hostOps1 (W2 m ρ c) (Proc.devRef .tc main_v36) = _
  after_results_simp <;> rfl

theorem second_v37 (c : Dev nD) : V3 m ρ c main_v37 = rowOf (V2 m ρ c main_arg6) := by
  show StableHlo.after hostOps1 (W2 m ρ c) (Proc.devRef .tc main_v37) = _
  after_results_simp <;> rfl

theorem second_v13 (c : Dev nD) : V3 m ρ c main_v13 = V2 m ρ c main_v13 := by
  show StableHlo.after hostOps1 (W2 m ρ c) (Proc.devRef .tc main_v13) = _
  after_results_simp <;> rfl

theorem second_v25 (c : Dev nD) : V3 m ρ c main_v25 = V2 m ρ c main_v25 := by
  show StableHlo.after hostOps1 (W2 m ρ c) (Proc.devRef .tc main_v25) = _
  after_results_simp <;> rfl

theorem second_arg5 (c : Dev nD) : V3 m ρ c main_arg5 = V2 m ρ c main_arg5 := by
  show StableHlo.after hostOps1 (W2 m ρ c) (Proc.devRef .tc main_arg5) = _
  after_results_simp <;> rfl

theorem second_arg7 (c : Dev nD) : V3 m ρ c main_arg7 = V2 m ρ c main_arg7 := by
  show StableHlo.after hostOps1 (W2 m ρ c) (Proc.devRef .tc main_arg7) = _
  after_results_simp <;> rfl

theorem second_v1 (c : Dev nD) : V3 m ρ c main_v1 = V2 m ρ c main_v1 := by
  show StableHlo.after hostOps1 (W2 m ρ c) (Proc.devRef .tc main_v1) = _
  after_results_simp <;> rfl

theorem second_v3 (c : Dev nD) : V3 m ρ c main_v3 = V2 m ρ c main_v3 := by
  show StableHlo.after hostOps1 (W2 m ρ c) (Proc.devRef .tc main_v3) = _
  after_results_simp <;> rfl

theorem second_arg8 (c : Dev nD) : V3 m ρ c main_arg8 = V2 m ρ c main_arg8 := by
  show StableHlo.after hostOps1 (W2 m ρ c) (Proc.devRef .tc main_arg8) = _
  after_results_simp <;> rfl

theorem second_arg9 (c : Dev nD) : V3 m ρ c main_arg9 = V2 m ρ c main_arg9 := by
  show StableHlo.after hostOps1 (W2 m ρ c) (Proc.devRef .tc main_arg9) = _
  after_results_simp <;> rfl

theorem second_arg10 (c : Dev nD) : V3 m ρ c main_arg10 = V2 m ρ c main_arg10 := by
  show StableHlo.after hostOps1 (W2 m ρ c) (Proc.devRef .tc main_arg10) = _
  after_results_simp <;> rfl

end Cert.KernelIdeal.Boundary

end
-- ==== Proof.ArraySecond.lean ====
/-
  The second pallas_call's result array, as one function of the arrays the call finds.

  The call runs over 20 grid points; point t stages rows 5000·t … 5000·t + 4999 of the neighbour sums, of the per-node
  factor and of the node features, and the two weight matrices and the bias row whole, and writes back the same rows of
  the result.  Row r of a block is row 5000·t + r of its array, so what point t writes back is rows 5000·t … of the
  layer of the WHOLE arrays (a row of the layer depends on the same row of the three row arrays only); the twenty
  blocks tile the 100000 rows, so the result array is that layer.  The arrays are the contents `V` the call is entered
  with, a parameter here.
-/
import proofs.«146334_j5463198401302_2_alg».proof.Proof.FrameKI
import proofs.«146334_j5463198401302_2_alg».proof.Proof.PayloadAt
import proofs.«146334_j5463198401302_2_alg».proof.Proof.SageSpec
import Idealize.ShloMosaic.Lib.Pipeline.Value
import Idealize.ShloMosaic.Lib.ValueIdx

set_option maxRecDepth 16384

noncomputable section

namespace Cert.KernelIdeal.ArraySecond

open Cert.KernelIdeal Cert.KernelIdeal.Gen Cert.KernelIdeal.GenP Cert.KernelIdeal.PayloadAt Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has twenty points. -/
theorem lt20 (t : Fin cfg1.N) : t.val < 20 := by
  have h := t.isLt
  have hN : cfg1.N = 20 := N_1
  omega

/-- Row `r` of point `n`'s block is row `5000·n + r` of the array. -/
def rowAt (n : Nat) (hn : n < 20) (r : Fin 5000) : Fin 100000 := ⟨5000 * n + r.val, by have := r.isLt; omega⟩

/-- The printed index maps over the twenty points: the three row windows and the result window sit at block row `t`,
    the weight and bias windows at the origin. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of the layer of the whole arrays. -/
theorem flushed_eq (c : Dev nD) (t : Fin cfg1.N) :
    (dat1 V c).flushed 6 t = ((cfg1.win 6).blk t).view.read (Elt Ideal) (actMul (V c main_v36) (V c main_v13) (V c main_v25) (V c main_arg5) (V c main_v37) (V c main_arg7)) := by
  show (cfg1.win 6).cut (grid1.coords t) ((dat1 V c).after 6 t) = _
  rw [after1_6]
  unfold out1_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := index_facts t
  refine funext fun (j : S5000x128.Idx) => ?_
  obtain ⟨r, f, rfl⟩ : ∃ (r : Fin 5000) (f : Fin 128), j = ix2 r f := ⟨j 0, j 1, eq_ix2 j⟩
  show k1_pay1 (F := Ideal) (iblk1 V c 0 t) (iblk1 V c 1 t) (iblk1 V c 2 t) (iblk1 V c 3 t) (iblk1 V c 5 t)
      (iblk1 V c 4 t) (ix2 r f) = actMul (V c main_v36) (V c main_v13) (V c main_v25) (V c main_arg5) (V c main_v37) (V c main_arg7)
        (((cfg1.win 6).blk t).view.emb (ix2 r f))
  have hrow : ((cfg1.win 6).blk t).view.emb (ix2 r f) = ix2 (rowAt t.val (lt20 t) r) f :=
    funext fun a => Fin.ext (by
      match a with
      | ⟨0, _⟩ => show win1_6.index t (0 : Fin 2) * 5000 + 1 * r.val = 5000 * t.val + r.val; omega
      | ⟨1, _⟩ => show win1_6.index t (1 : Fin 2) * 128 + 1 * f.val = f.val; omega)
  rw [hrow]
  refine second_point (V c main_v36) (V c main_v13) (V c main_v25) (V c main_arg5) (V c main_arg7) (V c main_v37)
    (iblk1 V c 0 t) (iblk1 V c 1 t) (iblk1 V c 2 t) (iblk1 V c 3 t) (iblk1 V c 5 t) (iblk1 V c 4 t)
    r f (rowAt t.val (lt20 t) r) ?_ ?_ ?_ ?_ ?_ ?_
  · intro d
    show V c main_v36 (((cfg1.win 0).blk t).view.emb (ix2 r d)) = V c main_v36 (ix2 (rowAt t.val (lt20 t) r) d)
    refine congrArg (V c main_v36) (funext fun a => Fin.ext ?_)
    match a with
    | ⟨0, _⟩ => show win1_0.index t (0 : Fin 2) * 5000 + 1 * r.val = 5000 * t.val + r.val; omega
    | ⟨1, _⟩ => show win1_0.index t (1 : Fin 2) * 128 + 1 * d.val = d.val; omega
  · intro d
    show V c main_v13 (((cfg1.win 1).blk t).view.emb (ix2 r d)) = V c main_v13 (ix2 (rowAt t.val (lt20 t) r) d)
    refine congrArg (V c main_v13) (funext fun a => Fin.ext ?_)
    match a with
    | ⟨0, _⟩ => show win1_1.index t (0 : Fin 2) * 5000 + 1 * r.val = 5000 * t.val + r.val; omega
    | ⟨1, _⟩ => show win1_1.index t (1 : Fin 2) * 128 + 1 * d.val = d.val; omega
  · intro d
    show V c main_v25 (((cfg1.win 2).blk t).view.emb (ix2 r d)) = V c main_v25 (ix2 (rowAt t.val (lt20 t) r) d)
    refine congrArg (V c main_v25) (funext fun a => Fin.ext ?_)
    match a with
    | ⟨0, _⟩ => show win1_2.index t (0 : Fin 2) * 5000 + 1 * r.val = 5000 * t.val + r.val; omega
    | ⟨1, _⟩ => show win1_2.index t (1 : Fin 2) * 128 + 1 * d.val = d.val; omega
  · intro d
    show V c main_arg5 (((cfg1.win 3).blk t).view.emb (ix2 d f)) = V c main_arg5 (ix2 d f)
    refine congrArg (V c main_arg5) (funext fun a => Fin.ext ?_)
    match a with
    | ⟨0, _⟩ => show win1_3.index t (0 : Fin 2) * 128 + 1 * d.val = d.val; omega
    | ⟨1, _⟩ => show win1_3.index t (1 : Fin 2) * 128 + 1 * f.val = f.val; omega
  · intro d
    show V c main_arg7 (((cfg1.win 5).blk t).view.emb (ix2 d f)) = V c main_arg7 (ix2 d f)
    refine congrArg (V c main_arg7) (funext fun a => Fin.ext ?_)
    match a with
    | ⟨0, _⟩ => show win1_5.index t (0 : Fin 2) * 128 + 1 * d.val = d.val; omega
    | ⟨1, _⟩ => show win1_5.index t (1 : Fin 2) * 128 + 1 * f.val = f.val; omega
  · show V c main_v37 (((cfg1.win 4).blk t).view.emb (ix2 (0 : Fin 1) f)) = V c main_v37 (ix2 (0 : Fin 1) f)
    refine congrArg (V c main_v37) (funext fun a => Fin.ext ?_)
    match a with
    | ⟨0, _⟩ => show win1_4.index t (0 : Fin 2) * 1 + 1 * 0 = 0; omega
    | ⟨1, _⟩ => show win1_4.index t (1 : Fin 2) * 128 + 1 * f.val = f.val; omega

/-- An index of the result array is in point `t`'s block iff each coordinate is in the block's range on its axis. -/
theorem mem_block (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v38).slice (win1_6.rect t)).set ↔ _
  rw [View.set_slice_whole, Rect.mem_set_unit]
  exact Iff.rfl

/-- Row `i` lies in the block of point `i / 5000`: the twenty blocks cover the array. -/
theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  have hq : (i 0).val / 5000 < cfg1.N := by omega
  obtain ⟨e00, e01, e10, e11, e20, e21, e30, e31, e40, e41, e50, e51, e60, e61⟩ := index_facts ⟨(i 0).val / 5000, hq⟩
  refine ⟨⟨(i 0).val / 5000, hq⟩, flush1_6 _, ?_⟩
  rw [mem_block]
  intro a
  match a with
  | ⟨0, _⟩ =>
    show win1_6.index ⟨(i 0).val / 5000, hq⟩ (0 : Fin 2) * 5000 ≤ (i 0).val
      ∧ (i 0).val < win1_6.index ⟨(i 0).val / 5000, hq⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hq⟩ (1 : Fin 2) * 128 ≤ (i 1).val
      ∧ (i 1).val < win1_6.index ⟨(i 0).val / 5000, hq⟩ (1 : Fin 2) * 128 + 128
    rw [e61]
    omega

/-- THE RESULT ARRAY of the second call: the layer of the arrays the call is entered with. -/
theorem array_eq (c : Dev nD) : (dat1 V c).arrAt 6 cfg1.N = actMul (V c main_v36) (V c main_v13) (V c main_v25) (V c main_arg5) (V c main_v37) (V c main_arg7) :=
  (dat1 V c).arrAt_eq_of_cover 6 _ (fun t _ => flushed_eq V c t) covered

end Cert.KernelIdeal.ArraySecond

end
-- ==== Proof.ArrayThird.lean ====
/-
  The third pallas_call's result array, as one function of the arrays the call finds.

  The call runs over 20 grid points; point t stages rows 5000·t … 5000·t + 4999 of the neighbour sums, of the per-node
  factor and of the node features, and the two weight matrices and the bias row whole, and writes back the same rows of
  the result.  Row r of a block is row 5000·t + r of its array, so what point t writes back is rows 5000·t … of the
  layer of the WHOLE arrays (a row of the layer depends on the same row of the three row arrays only); the twenty
  blocks tile the 100000 rows, so the result array is that layer.  The arrays are the contents `V` the call is entered
  with, a parameter here.
-/
import proofs.«146334_j5463198401302_2_alg».proof.Proof.FrameKI
import proofs.«146334_j5463198401302_2_alg».proof.Proof.PayloadAt
import proofs.«146334_j5463198401302_2_alg».proof.Proof.SageSpec
import Idealize.ShloMosaic.Lib.Pipeline.Value
import Idealize.ShloMosaic.Lib.ValueIdx

set_option maxRecDepth 16384

noncomputable section

namespace Cert.KernelIdeal.ArrayThird

open Cert.KernelIdeal Cert.KernelIdeal.Gen Cert.KernelIdeal.GenP Cert.KernelIdeal.PayloadAt Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The grid has twenty points. -/
theorem lt20 (t : Fin cfg2.N) : t.val < 20 := by
  have h := t.isLt
  have hN : cfg2.N = 20 := N_2
  omega

/-- Row `r` of point `n`'s block is row `5000·n + r` of the array. -/
def rowAt (n : Nat) (hn : n < 20) (r : Fin 5000) : Fin 100000 := ⟨5000 * n + r.val, by have := r.isLt; omega⟩

/-- The printed index maps over the twenty points: the three row windows and the result window sit at block row `t`,
    the weight and bias windows at the origin. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- What point `t` writes back is block `t` of the layer of the whole arrays. -/
theorem flushed_eq (c : Dev nD) (t : Fin cfg2.N) :
    (dat2 V c).flushed 6 t = ((cfg2.win 6).blk t).view.read (Elt Ideal) (linMul (V c main_v49) (V c main_v13) (V c main_v38) (V c main_arg8) (V c main_v50) (V c main_arg10)) := by
  show (cfg2.win 6).cut (grid2.coords t) ((dat2 V c).after 6 t) = _
  rw [after2_6]
  unfold out2_6
  rw [View.canon_unit_zero origin]
  simp only [View.ld_unit_zero (S := S5000x128) origin, View.ld_unit_zero (S := S128x128) origin,
    View.ld_unit_zero (S := S1x128) origin]
  obtain ⟨e00, e01, e10, e11, e20, e21, e30, e31, e40, e41, e50, e51, e60, e61⟩ := index_facts t
  refine funext fun (j : S5000x128.Idx) => ?_
  obtain ⟨r, f, rfl⟩ : ∃ (r : Fin 5000) (f : Fin 128), j = ix2 r f := ⟨j 0, j 1, eq_ix2 j⟩
  show k2_pay1 (F := Ideal) (iblk2 V c 0 t) (iblk2 V c 1 t) (iblk2 V c 2 t) (iblk2 V c 3 t) (iblk2 V c 5 t)
      (iblk2 V c 4 t) (ix2 r f) = linMul (V c main_v49) (V c main_v13) (V c main_v38) (V c main_arg8) (V c main_v50) (V c main_arg10)
        (((cfg2.win 6).blk t).view.emb (ix2 r f))
  have hrow : ((cfg2.win 6).blk t).view.emb (ix2 r f) = ix2 (rowAt t.val (lt20 t) r) f :=
    funext fun a => Fin.ext (by
      match a with
      | ⟨0, _⟩ => show win2_6.index t (0 : Fin 2) * 5000 + 1 * r.val = 5000 * t.val + r.val; omega
      | ⟨1, _⟩ => show win2_6.index t (1 : Fin 2) * 128 + 1 * f.val = f.val; omega)
  rw [hrow]
  refine third_point (V c main_v49) (V c main_v13) (V c main_v38) (V c main_arg8) (V c main_arg10) (V c main_v50)
    (iblk2 V c 0 t) (iblk2 V c 1 t) (iblk2 V c 2 t) (iblk2 V c 3 t) (iblk2 V c 5 t) (iblk2 V c 4 t)
    r f (rowAt t.val (lt20 t) r) ?_ ?_ ?_ ?_ ?_ ?_
  · intro d
    show V c main_v49 (((cfg2.win 0).blk t).view.emb (ix2 r d)) = V c main_v49 (ix2 (rowAt t.val (lt20 t) r) d)
    refine congrArg (V c main_v49) (funext fun a => Fin.ext ?_)
    match a with
    | ⟨0, _⟩ => show win2_0.index t (0 : Fin 2) * 5000 + 1 * r.val = 5000 * t.val + r.val; omega
    | ⟨1, _⟩ => show win2_0.index t (1 : Fin 2) * 128 + 1 * d.val = d.val; omega
  · intro d
    show V c main_v13 (((cfg2.win 1).blk t).view.emb (ix2 r d)) = V c main_v13 (ix2 (rowAt t.val (lt20 t) r) d)
    refine congrArg (V c main_v13) (funext fun a => Fin.ext ?_)
    match a with
    | ⟨0, _⟩ => show win2_1.index t (0 : Fin 2) * 5000 + 1 * r.val = 5000 * t.val + r.val; omega
    | ⟨1, _⟩ => show win2_1.index t (1 : Fin 2) * 128 + 1 * d.val = d.val; omega
  · intro d
    show V c main_v38 (((cfg2.win 2).blk t).view.emb (ix2 r d)) = V c main_v38 (ix2 (rowAt t.val (lt20 t) r) d)
    refine congrArg (V c main_v38) (funext fun a => Fin.ext ?_)
    match a with
    | ⟨0, _⟩ => show win2_2.index t (0 : Fin 2) * 5000 + 1 * r.val = 5000 * t.val + r.val; omega
    | ⟨1, _⟩ => show win2_2.index t (1 : Fin 2) * 128 + 1 * d.val = d.val; omega
  · intro d
    show V c main_arg8 (((cfg2.win 3).blk t).view.emb (ix2 d f)) = V c main_arg8 (ix2 d f)
    refine congrArg (V c main_arg8) (funext fun a => Fin.ext ?_)
    match a with
    | ⟨0, _⟩ => show win2_3.index t (0 : Fin 2) * 128 + 1 * d.val = d.val; omega
    | ⟨1, _⟩ => show win2_3.index t (1 : Fin 2) * 128 + 1 * f.val = f.val; omega
  · intro d
    show V c main_arg10 (((cfg2.win 5).blk t).view.emb (ix2 d f)) = V c main_arg10 (ix2 d f)
    refine congrArg (V c main_arg10) (funext fun a => Fin.ext ?_)
    match a with
    | ⟨0, _⟩ => show win2_5.index t (0 : Fin 2) * 128 + 1 * d.val = d.val; omega
    | ⟨1, _⟩ => show win2_5.index t (1 : Fin 2) * 128 + 1 * f.val = f.val; omega
  · show V c main_v50 (((cfg2.win 4).blk t).view.emb (ix2 (0 : Fin 1) f)) = V c main_v50 (ix2 (0 : Fin 1) f)
    refine congrArg (V c main_v50) (funext fun a => Fin.ext ?_)
    match a with
    | ⟨0, _⟩ => show win2_4.index t (0 : Fin 2) * 1 + 1 * 0 = 0; omega
    | ⟨1, _⟩ => show win2_4.index t (1 : Fin 2) * 128 + 1 * f.val = f.val; omega

/-- An index of the result array is in point `t`'s block iff each coordinate is in the block's range on its axis. -/
theorem mem_block (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v51).slice (win2_6.rect t)).set ↔ _
  rw [View.set_slice_whole, Rect.mem_set_unit]
  exact Iff.rfl

/-- Row `i` lies in the block of point `i / 5000`: the twenty blocks cover the array. -/
theorem covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  have hN : cfg2.N = 20 := N_2
  have hq : (i 0).val / 5000 < cfg2.N := by omega
  obtain ⟨e00, e01, e10, e11, e20, e21, e30, e31, e40, e41, e50, e51, e60, e61⟩ := index_facts ⟨(i 0).val / 5000, hq⟩
  refine ⟨⟨(i 0).val / 5000, hq⟩, flush2_6 _, ?_⟩
  rw [mem_block]
  intro a
  match a with
  | ⟨0, _⟩ =>
    show win2_6.index ⟨(i 0).val / 5000, hq⟩ (0 : Fin 2) * 5000 ≤ (i 0).val
      ∧ (i 0).val < win2_6.index ⟨(i 0).val / 5000, hq⟩ (0 : Fin 2) * 5000 + 5000
    rw [e60]
    show (i 0).val / 5000 * 5000 ≤ (i 0).val ∧ (i 0).val < (i 0).val / 5000 * 5000 + 5000
    omega
  | ⟨1, _⟩ =>
    show win2_6.index ⟨(i 0).val / 5000, hq⟩ (1 : Fin 2) * 128 ≤ (i 1).val
      ∧ (i 1).val < win2_6.index ⟨(i 0).val / 5000, hq⟩ (1 : Fin 2) * 128 + 128
    rw [e61]
    omega

/-- THE RESULT ARRAY of the third call: the layer of the arrays the call is entered with. -/
theorem array_eq (c : Dev nD) : (dat2 V c).arrAt 6 cfg2.N = linMul (V c main_v49) (V c main_v13) (V c main_v38) (V c main_arg8) (V c main_v50) (V c main_arg10) :=
  (dat2 V c).arrAt_eq_of_cover 6 _ (fun t _ => flushed_eq V c t) covered

end Cert.KernelIdeal.ArrayThird

end
-- ==== Proof.BoundaryC.lean ====
/-
  From the second pallas_call to the end, and the kernel program's result array as a function of the launch memory.

  The second call's result is the rectified layer of what it finds; the third stretch aggregates that result along the
  edges and recasts the third bias; the third call's result, without activation, is the program's result.  Unfolding the
  six boundaries one after the other gives the result as three nested layers over the launch memory: each layer takes
  the neighbour sums of the previous layer's result, the same per-node factor, and its own weights and bias.
-/
import proofs.«146334_j5463198401302_2_alg».proof.Proof.BoundaryB
import proofs.«146334_j5463198401302_2_alg».proof.Proof.ArraySecond
import proofs.«146334_j5463198401302_2_alg».proof.Proof.ArrayThird
import Idealize.ShloMosaic.Lib.StableHlo.Run
import Idealize.ShloMosaic.PureOps.Ideal

set_option maxRecDepth 16384
set_option maxHeartbeats 1000000

noncomputable section

namespace Cert.KernelIdeal.Boundary

open Cert.KernelIdeal Cert.KernelIdeal.Gen Cert.KernelIdeal.GenP Cert.Chain Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- The second call's result array is the rectified layer of the arrays the call finds. -/
theorem after_second (c : Dev nD) :
    V4 m ρ c main_v38 = actMul (V3 m ρ c main_v36) (V3 m ρ c main_v13) (V3 m ρ c main_v25) (V3 m ρ c main_arg5)
      (V3 m ρ c main_v37) (V3 m ρ c main_arg7) :=
  (W4_arr m ρ c 6).trans (Cert.KernelIdeal.ArraySecond.array_eq (V3 m ρ) c)

theorem carry1_v1 (c : Dev nD) : V4 m ρ c main_v1 = V3 m ρ c main_v1 := W4_of_ne m ρ c main_v1 (by decide)
theorem carry1_v3 (c : Dev nD) : V4 m ρ c main_v3 = V3 m ρ c main_v3 := W4_of_ne m ρ c main_v3 (by decide)
/-- The factor array is an input window of the call: staged, never written back. -/
theorem carry1_v13 (c : Dev nD) : V4 m ρ c main_v13 = V3 m ρ c main_v13 :=
  (W4_arr m ρ c 1).trans (((dat1 (V3 m ρ) c).arrAt_in 1 rfl _).trans (A_eq1 (V3 m ρ) c 1))
theorem carry1_arg8 (c : Dev nD) : V4 m ρ c main_arg8 = V3 m ρ c main_arg8 := W4_of_ne m ρ c main_arg8 (by decide)
theorem carry1_arg9 (c : Dev nD) : V4 m ρ c main_arg9 = V3 m ρ c main_arg9 := W4_of_ne m ρ c main_arg9 (by decide)
theorem carry1_arg10 (c : Dev nD) : V4 m ρ c main_arg10 = V3 m ρ c main_arg10 := W4_of_ne m ρ c main_arg10 (by decide)

theorem third_v49 (c : Dev nD) : V5 m ρ c main_v49 = aggOf (V4 m ρ c main_v38) (V4 m ρ c main_v1) (V4 m ρ c main_v3) := by
  show StableHlo.after hostOps2 (W4 m ρ c) (Proc.devRef .tc main_v49) = _
  after_results_simp <;> rfl

theorem third_v50 (c : Dev nD) : V5 m ρ c main_v50 = rowOf (V4 m ρ c main_arg9) := by
  show StableHlo.after hostOps2 (W4 m ρ c) (Proc.devRef .tc main_v50) = _
  after_results_simp <;> rfl

theorem third_v13 (c : Dev nD) : V5 m ρ c main_v13 = V4 m ρ c main_v13 := by
  show StableHlo.after hostOps2 (W4 m ρ c) (Proc.devRef .tc main_v13) = _
  after_results_simp <;> rfl

theorem third_v38 (c : Dev nD) : V5 m ρ c main_v38 = V4 m ρ c main_v38 := by
  show StableHlo.after hostOps2 (W4 m ρ c) (Proc.devRef .tc main_v38) = _
  after_results_simp <;> rfl

theorem third_arg8 (c : Dev nD) : V5 m ρ c main_arg8 = V4 m ρ c main_arg8 := by
  show StableHlo.after hostOps2 (W4 m ρ c) (Proc.devRef .tc main_arg8) = _
  after_results_simp <;> rfl

theorem third_arg10 (c : Dev nD) : V5 m ρ c main_arg10 = V4 m ρ c main_arg10 := by
  show StableHlo.after hostOps2 (W4 m ρ c) (Proc.devRef .tc main_arg10) = _
  after_results_simp <;> rfl

/-- The third call's result array is the layer, without activation, of the arrays the call finds. -/
theorem after_third (c : Dev nD) :
    V6 m ρ c main_v51 = linMul (V5 m ρ c main_v49) (V5 m ρ c main_v13) (V5 m ρ c main_v38) (V5 m ρ c main_arg8)
      (V5 m ρ c main_v50) (V5 m ρ c main_arg10) :=
  (W6_arr m ρ c 6).trans (Cert.KernelIdeal.ArrayThird.array_eq (V5 m ρ) c)

/-- The first hidden layer as the kernel program computes it, over the launch memory. -/
def hidden1 (c : Dev nD) : Mat :=
  actMul (aggOf (m ((c.tc : Thread nD τ).loc main_arg0)) (srcOf (m ((c.tc : Thread nD τ).loc main_arg1))) (dstOf (m ((c.tc : Thread nD τ).loc main_arg1))))
    (recipOf (divisorOf (dstOf (m ((c.tc : Thread nD τ).loc main_arg1))))) (m ((c.tc : Thread nD τ).loc main_arg0)) (m ((c.tc : Thread nD τ).loc main_arg2)) (rowOf (m ((c.tc : Thread nD τ).loc main_arg3))) (m ((c.tc : Thread nD τ).loc main_arg4))

/-- The second hidden layer, over the first. -/
def hidden2 (c : Dev nD) : Mat :=
  actMul (aggOf (hidden1 m c) (srcOf (m ((c.tc : Thread nD τ).loc main_arg1))) (dstOf (m ((c.tc : Thread nD τ).loc main_arg1))))
    (recipOf (divisorOf (dstOf (m ((c.tc : Thread nD τ).loc main_arg1))))) (hidden1 m c) (m ((c.tc : Thread nD τ).loc main_arg5)) (rowOf (m ((c.tc : Thread nD τ).loc main_arg6))) (m ((c.tc : Thread nD τ).loc main_arg7))

/-- THE KERNEL PROGRAM'S RESULT ARRAY: the third layer, without activation, over the second hidden layer. -/
theorem result_eq (c : Dev nD) :
    W6 m ρ c (Proc.devRef .tc main_v51)
      = linMul (aggOf (hidden2 m c) (srcOf (m ((c.tc : Thread nD τ).loc main_arg1))) (dstOf (m ((c.tc : Thread nD τ).loc main_arg1))))
          (recipOf (divisorOf (dstOf (m ((c.tc : Thread nD τ).loc main_arg1))))) (hidden2 m c) (m ((c.tc : Thread nD τ).loc main_arg8)) (rowOf (m ((c.tc : Thread nD τ).loc main_arg9))) (m ((c.tc : Thread nD τ).loc main_arg10)) := by
  show V6 m ρ c main_v51 = _
  rw [after_third]
  rw [third_v49, third_v50, third_v13, third_v38, third_arg8, third_arg10]
  rw [after_second, carry1_v1, carry1_v3, carry1_v13, carry1_arg8, carry1_arg9, carry1_arg10]
  rw [second_v36, second_v37, second_v13, second_v25, second_arg5, second_arg7, second_v1, second_v3, second_arg8, second_arg9,
    second_arg10]
  rw [after_first, carry0_v1, carry0_v3, carry0_v13, carry0_arg5, carry0_arg6, carry0_arg7, carry0_arg8, carry0_arg9, carry0_arg10]
  rw [first_sums, first_factor, first_bias0, first_sources, first_targets, first_arg0, first_arg2, first_arg4, first_arg5, first_arg6,
    first_arg7, first_arg8, first_arg9, first_arg10]
  rfl

end Cert.KernelIdeal.Boundary

end
-- ==== Proof.LibInDimLayout.lean ====
/-
  Broadcasts along unit and new axes, read at an index given by coordinates.

  A broadcast never moves a coordinate: the result at an index reads the operand at the same coordinates on the
  axes the operand really has, and at 0 on an operand axis of extent one.  So
    a one-element vector [1] spread over [a] reads its one element everywhere,
    a vector [a] given a trailing unit axis, [a, 1], reads entry i at (i, 0),
    a column [a, 1] spread over [a, b] reads row i at (i, j),
    a matrix [a, b] given a trailing unit axis, [a, b, 1], reads entry (i, j) at (i, j, 0),
    a stack of columns [a, b, 1] spread over [a, b, c] reads (i, j, 0) at (i, j, k),
  for the host's broadcast_in_dim with the identity placement of the operand's axes, and, for the vector
  broadcast, a one-by-one matrix [1, 1] spread down a column [a, 1] reads its one element everywhere.
-/
import Idealize.ShloMosaic.Lib.Pipeline.Value
import Idealize.ShloMosaic.Lib.ValueIdx

namespace Cert.LibInDimLayout

open Idealize.ShloMosaic Idealize.ShloMosaic.ValueIdx

variable {α : Type}

/-- [1] spread over [a] along axis 0: every entry is the operand's one element. -/
theorem inDim_1_a_apply {a : ℕ} (v : (⟨1, ![1]⟩ : Shape).Idx → α)
    (h : (⟨1, ![1]⟩ : Shape).BroadcastsInDim ⟨1, ![a]⟩ ![0]) (i : Fin a) :
    broadcastInDim ⟨1, ![a]⟩ ![0] h v (ix1 i) = v (ix1 (0 : Fin 1)) := by
  refine broadcastInDim_apply _ h v (ix1 i) (ix1 (0 : Fin 1)) fun ax => ?_
  match ax with
  | ⟨0, _⟩ =>
    show (0 : ℕ) = if (1 : ℕ) = 1 then 0 else _
    rw [if_pos rfl]

/-- [a] placed on axis 0 of [a, 1]: entry (i, u) is the operand at i. -/
theorem inDim_a_a1_apply {a : ℕ} (v : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h v (ix2 i u) = v (ix1 i) := by
  refine broadcastInDim_apply _ h v (ix2 i u) (ix1 i) fun ax => ?_
  match ax with
  | ⟨0, _⟩ =>
    show i.val = if a = 1 then 0 else i.val
    split
    · have := i.isLt; omega
    · rfl

/-- A column [a, 1] spread over [a, b], axes kept in place: entry (i, j) is the column at (i, 0). -/
theorem inDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply _ h v (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

/-- A matrix [a, b] placed on the first two axes of [a, b, 1]: entry (i, j, u) is the operand at (i, j). -/
theorem inDim_ab_ab1_apply {a b : ℕ} (v : (⟨2, ![a, b]⟩ : Shape).Idx → α)
    (h : (⟨2, ![a, b]⟩ : Shape).BroadcastsInDim ⟨3, ![a, b, 1]⟩ ![0, 1]) (i : Fin a) (j : Fin b) (u : Fin 1) :
    broadcastInDim ⟨3, ![a, b, 1]⟩ ![0, 1] h v (ix3 i j u) = v (ix2 i j) := by
  refine broadcastInDim_apply _ h v (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- [a, b, 1] spread over [a, b, c], axes kept in place: entry (i, j, k) is the operand at (i, j, 0). -/
theorem inDim_ab1_abc_apply {a b c : ℕ} (v : (⟨3, ![a, b, 1]⟩ : Shape).Idx → α)
    (h : (⟨3, ![a, b, 1]⟩ : Shape).BroadcastsInDim ⟨3, ![a, b, c]⟩ ![0, 1, 2]) (i : Fin a) (j : Fin b) (k : Fin c) :
    broadcastInDim ⟨3, ![a, b, c]⟩ ![0, 1, 2] h v (ix3 i j k) = v (ix3 i j (0 : Fin 1)) := by
  refine broadcastInDim_apply _ h v (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else _
    rw [if_pos rfl]

/-- The vector broadcast of a one-by-one matrix down a column [a, 1]: every entry is the one element. -/
theorem broadcastTo_11_a1_apply {a : ℕ} (v : (⟨2, ![1, 1]⟩ : Shape).Idx → α)
    (h : (⟨2, ![1, 1]⟩ : Shape).Broadcasts ⟨2, ![a, 1]⟩) (i : Fin a) (u : Fin 1) :
    broadcastTo ⟨2, ![a, 1]⟩ v h (ix2 i u) = v (ix2 (0 : Fin 1) (0 : Fin 1)) := by
  refine broadcastTo_apply v h (ix2 i u) (ix2 (0 : Fin 1) (0 : Fin 1)) fun ax => ?_
  match ax with
  | ⟨0, _⟩ =>
    show (0 : ℕ) = if (1 : ℕ) = 1 then 0 else _
    rw [if_pos rfl]
  | ⟨1, _⟩ =>
    show (0 : ℕ) = if (1 : ℕ) = 1 then 0 else _
    rw [if_pos rfl]

end Cert.LibInDimLayout
-- ==== Proof.LibInDimRow.lean ====
/-
  Two broadcasts of a bias row, read at an index given by coordinates.

  A vector [b] placed on axis 1 of [1, b] reads entry j at (0, j); a row [1, b] spread over [a, b] with its axes kept in
  place reads its one row at (i, j), whatever the row i.  Both are the host's broadcast_in_dim: a broadcast never moves a
  coordinate, it reads the operand at the same coordinate on each axis the operand really has and at 0 on an operand
  axis of extent one.
-/
import Idealize.ShloMosaic.Lib.Pipeline.Value
import Idealize.ShloMosaic.Lib.ValueIdx

namespace Cert.LibInDimRow

open Idealize.ShloMosaic Idealize.ShloMosaic.ValueIdx

variable {α : Type}

/-- [b] placed on axis 1 of [1, b]: entry (u, j) is the operand at j. -/
theorem inDim_b_1b_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) := by
  refine broadcastInDim_apply _ h v (ix2 u j) (ix1 j) fun ax => ?_
  match ax with
  | ⟨0, _⟩ =>
    show j.val = if b = 1 then 0 else j.val
    split
    · have := j.isLt; omega
    · rfl

/-- A row [1, b] spread over [a, b], axes kept in place: entry (i, j) is the row at (0, j). -/
theorem inDim_1b_ab_apply {a b : ℕ} (v : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h v (ix2 i j) = v (ix2 (0 : Fin 1) j) := by
  refine broadcastInDim_apply _ h v (ix2 i j) (ix2 (0 : Fin 1) j) fun ax => ?_
  match ax with
  | ⟨0, _⟩ =>
    show (0 : ℕ) = if (1 : ℕ) = 1 then 0 else _
    rw [if_pos rfl]
  | ⟨1, _⟩ =>
    show j.val = if b = 1 then 0 else j.val
    split
    · have := j.isLt; omega
    · rfl

end Cert.LibInDimRow
-- ==== Proof.RefLayers.lean ====
/-
  The reference program's three layers, each as one layer function of whole arrays.

  The reference computes a layer with host operations: the neighbour sums divided by the per-node divisor (a column
  spread over the 128 features), a matrix product with `Wl`, the bias spread over the rows, a matrix product of the
  node features with `Wr`, two sums, and for the first two layers a maximum with zero.  Read at an index (p, f) on the
  extended reals this is the layer's entry: each matrix product is an inner product, each broadcast reads its operand
  at the coordinate it keeps.  The neighbour sums (a gather of feature rows along the edges' sources followed by a
  scatter-add along their targets) and the divisor (the larger of the in-degree and one) are functions of the features
  and of the edge list that are never opened: both programs apply the same operations there.
-/
import proofs.«146334_j5463198401302_2_alg».proof.Proof.Gen.ReferenceIdeal.Read
import proofs.«146334_j5463198401302_2_alg».proof.Proof.SageSpec
import proofs.«146334_j5463198401302_2_alg».proof.Proof.SharedChain
import proofs.«146334_j5463198401302_2_alg».proof.Proof.LibInnerProducts
import proofs.«146334_j5463198401302_2_alg».proof.Proof.LibInDimLayout
import proofs.«146334_j5463198401302_2_alg».proof.Proof.LibInDimRow
import Idealize.ShloMosaic.Lib.ValueIdx

noncomputable section

namespace Cert.ReferenceIdeal.Layers

open Cert.ReferenceIdeal Cert.ReferenceIdeal.Gen Cert.ReferenceIdeal.Read Cert.Sage Cert.Chain
open Idealize.ShloMosaic Idealize.ShloMosaic.ValueIdx
open scoped BigOperators

abbrev Edges : Type := (⟨S2x1600000, .i32⟩ : BufTy).Contents (Elt Ideal)
abbrev FWt : Type := FVec Ideal S128x128 .f32
abbrev FBias : Type := FVec Ideal S128 .f32

/-- The host's matrix products contract the left factor's columns with the right factor's rows, no batch axis. -/
theorem dot_plain : dot_S100000x128_S128x128_S100000x128_1_0_0_1_n_n = DotDims.plain 100000 128 128 := rfl

/-- A layer's pre-activation as the host operations compute it. -/
def hostPre (S : FMat) (dm : FCol) (H : FMat) (Wl : FWt) (bl : FBias) (Wr : FWt) : FMat :=
  addf (F := Ideal)
    (addf (F := Ideal)
      (Host.dotGeneral (F := Ideal) dot_S100000x128_S128x128_S100000x128_1_0_0_1_n_n none
        (Host.divf (F := Ideal) S
          (broadcastInDim S100000x128 ![0, 1] bcast_S100000x1_S100000x128_0_1
            (broadcastInDim S100000x1 ![0] bcast_S100000_S100000x1_0 dm))) Wl)
      (broadcastInDim S100000x128 ![0, 1] bcast_S1x128_S100000x128_0_1 (broadcastInDim S1x128 ![1] bcast_S128_S1x128_1 bl)))
    (Host.dotGeneral (F := Ideal) dot_S100000x128_S128x128_S100000x128_1_0_0_1_n_n none H Wr)

/-- The rectified layer as the host operations compute it. -/
def hostAct (S : FMat) (dm : FCol) (H : FMat) (Wl : FWt) (bl : FBias) (Wr : FWt) : FMat :=
  maximumf (F := Ideal) (hostPre S dm H Wl bl Wr)
    (broadcastInDim S100000x128 ![] bcast_S_S100000x128 (constant (F := Ideal) S_ .f32 0x00000000#32))

/-- Entry (p, f) of the host's pre-activation is the layer's entry. -/
theorem hostPre_apply (S : FMat) (dm : FCol) (H : FMat) (Wl : FWt) (bl : FBias) (Wr : FWt) (p : Fin 100000) (f : Fin 128) :
    hostPre S dm H Wl bl Wr (ix2 p f) = pre S dm H Wl bl Wr p f := by
  unfold hostPre pre
  show (Host.dotGeneral (F := Ideal) dot_S100000x128_S128x128_S100000x128_1_0_0_1_n_n none
          (Host.divf (F := Ideal) S
            (broadcastInDim S100000x128 ![0, 1] bcast_S100000x1_S100000x128_0_1
              (broadcastInDim S100000x1 ![0] bcast_S100000_S100000x1_0 dm))) Wl (ix2 p f)
        + broadcastInDim S100000x128 ![0, 1] bcast_S1x128_S100000x128_0_1 (broadcastInDim S1x128 ![1] bcast_S128_S1x128_1 bl) (ix2 p f))
      + Host.dotGeneral (F := Ideal) dot_S100000x128_S128x128_S100000x128_1_0_0_1_n_n none H Wr (ix2 p f) = _
  rw [InnerProducts.dotGeneral_apply _ dot_plain none _ Wl p f, InnerProducts.dotGeneral_apply _ dot_plain none H Wr p f,
    Cert.LibInDimRow.inDim_1b_ab_apply, Cert.LibInDimRow.inDim_b_1b_apply]
  refine congrArg (fun s => s + bl (ix1 f) + ∑ d : Fin 128, H (ix2 p d) * Wr (ix2 d f)) (Finset.sum_congr rfl fun d _ => ?_)
  show Ideal.div (S (ix2 p d))
      (broadcastInDim S100000x128 ![0, 1] bcast_S100000x1_S100000x128_0_1
        (broadcastInDim S100000x1 ![0] bcast_S100000_S100000x1_0 dm) (ix2 p d)) * Wl (ix2 d f) = _
  rw [Cert.LibInDimLayout.inDim_a1_ab_apply, Cert.LibInDimLayout.inDim_a_a1_apply]

theorem hostPre_eq_lin (S : FMat) (dm : FCol) (H : FMat) (Wl : FWt) (bl : FBias) (Wr : FWt) :
    hostPre S dm H Wl bl Wr = lin S dm H Wl bl Wr := by
  funext i
  obtain ⟨p, f, rfl⟩ : ∃ (p : Fin 100000) (f : Fin 128), i = ix2 p f := ⟨i 0, i 1, eq_ix2 i⟩
  exact hostPre_apply S dm H Wl bl Wr p f

theorem hostAct_eq_act (S : FMat) (dm : FCol) (H : FMat) (Wl : FWt) (bl : FBias) (Wr : FWt) :
    hostAct S dm H Wl bl Wr = act S dm H Wl bl Wr := by
  funext i
  obtain ⟨p, f, rfl⟩ : ∃ (p : Fin 100000) (f : Fin 128), i = ix2 p f := ⟨i 0, i 1, eq_ix2 i⟩
  show max (hostPre S dm H Wl bl Wr (ix2 p f)) (Ideal.ofBits .f32 0x00000000#32) = _
  rw [hostPre_apply]
  rfl

/-- The edge list's sources and targets. -/
abbrev srcOf (E : Edges) : EdgeVec := val_main_v1 (F := Ideal) E
abbrev dstOf (E : Edges) : EdgeVec := val_main_v3 (F := Ideal) E

/-! ## The first layer -/

theorem sums1 (x0 : FMat) (E : Edges) :
    val_main_v13 (F := Ideal) x0 E = aggOf (x0) (srcOf E) (dstOf E) := rfl

theorem count1 (E : Edges) : val_main_v17 (F := Ideal) E = degOf (dstOf E) := rfl

theorem divisor1 (E : Edges) : val_main_v19 (F := Ideal) E = divisorOf (dstOf E) := by
  unfold val_main_v19 divisorOf
  rw [count1]
  rfl

theorem first_layer (x0 : FMat) (E : Edges) (x2 : FWt) (x3 : FBias) (x4 : FWt) :
    val_main_v29 (F := Ideal) x0 E x2 x3 x4 = act (aggOf (x0) (srcOf E) (dstOf E)) (divisorOf (dstOf E)) (x0) x2 x3 x4 := by
  refine Eq.trans ?_ (hostAct_eq_act _ _ _ _ _ _)
  unfold val_main_v29 val_main_v28 val_main_v26 val_main_v27 val_main_v23 val_main_v22 val_main_v21 val_main_v20 val_main_v25 val_main_v24 val_main_call0_v0 val_main_call0_cst hostAct hostPre
  rw [sums1, divisor1]

/-! ## The second layer -/

theorem sums2 (x0 : FMat) (E : Edges) (x2 : FWt) (x3 : FBias) (x4 : FWt) :
    val_main_v39 (F := Ideal) x0 E x2 x3 x4 = aggOf (val_main_v29 (F := Ideal) x0 E x2 x3 x4) (srcOf E) (dstOf E) := rfl

theorem count2 (E : Edges) : val_main_v43 (F := Ideal) E = degOf (dstOf E) := rfl

theorem divisor2 (E : Edges) : val_main_v45 (F := Ideal) E = divisorOf (dstOf E) := by
  unfold val_main_v45 divisorOf
  rw [count2]
  rfl

theorem second_layer (x0 : FMat) (E : Edges) (x2 : FWt) (x3 : FBias) (x4 : FWt) (x5 : FWt) (x6 : FBias) (x7 : FWt) :
    val_main_v55 (F := Ideal) x0 E x2 x3 x4 x5 x6 x7 = act (aggOf (val_main_v29 (F := Ideal) x0 E x2 x3 x4) (srcOf E) (dstOf E)) (divisorOf (dstOf E)) (val_main_v29 (F := Ideal) x0 E x2 x3 x4) x5 x6 x7 := by
  refine Eq.trans ?_ (hostAct_eq_act _ _ _ _ _ _)
  unfold val_main_v55 val_main_v54 val_main_v52 val_main_v53 val_main_v49 val_main_v48 val_main_v47 val_main_v46 val_main_v51 val_main_v50 val_main_call1_v0 val_main_call1_cst hostAct hostPre
  rw [sums2, divisor2]

/-! ## The third layer -/

theorem sums3 (x0 : FMat) (E : Edges) (x2 : FWt) (x3 : FBias) (x4 : FWt) (x5 : FWt) (x6 : FBias) (x7 : FWt) :
    val_main_v65 (F := Ideal) x0 E x2 x3 x4 x5 x6 x7 = aggOf (val_main_v55 (F := Ideal) x0 E x2 x3 x4 x5 x6 x7) (srcOf E) (dstOf E) := rfl

theorem count3 (E : Edges) : val_main_v69 (F := Ideal) E = degOf (dstOf E) := rfl

theorem divisor3 (E : Edges) : val_main_v71 (F := Ideal) E = divisorOf (dstOf E) := by
  unfold val_main_v71 divisorOf
  rw [count3]
  rfl

theorem third_layer (x0 : FMat) (E : Edges) (x2 : FWt) (x3 : FBias) (x4 : FWt) (x5 : FWt) (x6 : FBias) (x7 : FWt) (x8 : FWt) (x9 : FBias) (x10 : FWt) :
    val_main_v80 (F := Ideal) x0 E x2 x3 x4 x5 x6 x7 x8 x9 x10 = lin (aggOf (val_main_v55 (F := Ideal) x0 E x2 x3 x4 x5 x6 x7) (srcOf E) (dstOf E)) (divisorOf (dstOf E)) (val_main_v55 (F := Ideal) x0 E x2 x3 x4 x5 x6 x7) x8 x9 x10 := by
  refine Eq.trans ?_ (hostPre_eq_lin _ _ _ _ _ _)
  unfold val_main_v80 val_main_v78 val_main_v79 val_main_v75 val_main_v74 val_main_v73 val_main_v72 val_main_v77 val_main_v76 hostPre
  rw [sums3, divisor3]

end Cert.ReferenceIdeal.Layers

end
-- ==== Proof.KernelValue.lean ====
/-
  The kernel program's result array is the reference's result, as functions of the argument arrays.

  The kernel program multiplies the neighbour sums by a per-node factor, one over the divisor, spread over the features;
  read at (p, d) that factor is the quotient of one by the divisor at p.  It adds the bias as a row; read at (0, f) the
  row is the bias at f.  The divisor is nowhere zero.  With these three facts each of the kernel program's layers is the
  layer that divides (multiplying by the reciprocal of a number other than zero is dividing by it, on all of the extended
  reals), and the reference's layers are those layers.  The identification goes layer by layer: the first hidden arrays
  agree, so the second layers take equal inputs, and so on to the result.
-/
import proofs.«146334_j5463198401302_2_alg».proof.Proof.BoundaryC
import proofs.«146334_j5463198401302_2_alg».proof.Proof.RefLayers
import proofs.«146334_j5463198401302_2_alg».proof.Proof.LibInDimLayout
import Idealize.ShloMosaic.Lib.ValueLayout
import Idealize.ShloMosaic.Lib.ValueIdx

set_option maxRecDepth 16384

noncomputable section

namespace Cert.KernelIdeal.Value

open Cert.KernelIdeal Cert.KernelIdeal.Gen Cert.KernelIdeal.GenP Cert.KernelIdeal.Boundary Cert.Chain Cert.Sage Cert.LibReciprocal
open Cert.ReferenceIdeal.Read
open Idealize.ShloMosaic Idealize.ShloMosaic.TcCoe Idealize.ShloMosaic.ValueIdx Idealize.SL.Sem

/-- The factor array at (p, d): one over the divisor at p. -/
theorem recipOf_apply (dv : FVec Ideal S100000 .f32) (p : Fin 100000) (d : Fin 128) :
    recipOf dv (ix2 p d) = Ideal.div 1 (dv (ix1 p)) := by
  unfold recipOf
  rw [Cert.LibInDimLayout.inDim_a1_ab_apply, Cert.LibInDimLayout.inDim_a_a1_apply]
  show Ideal.div (broadcastInDim S100000 ![] bcast_S_S100000 (constant (F := Ideal) S_ .f32 0x3F800000#32) (ix1 p)) (dv (ix1 p)) = _
  rw [(broadcastInDim_apply _ bcast_S_S100000 (constant (F := Ideal) S_ .f32 0x3F800000#32) (ix1 p) ix0 (fun a => a.elim0)),
    constant_apply, one_word]

/-- The bias row at (0, f): the bias at f. -/
theorem rowOf_apply (b : FVec Ideal S128 .f32) (f : Fin 128) : rowOf b (ix2 (0 : Fin 1) f) = b (ix1 f) := by
  unfold rowOf
  exact shapeCast_a_1a_apply b shapeCasts_S128_S1x128 0 f

/-- The edge list's sources and targets are the reference's. -/
theorem src_eq (E : Boundary.Edges) : Boundary.srcOf E = Cert.ReferenceIdeal.Layers.srcOf E := rfl
theorem dst_eq (E : Boundary.Edges) : Boundary.dstOf E = Cert.ReferenceIdeal.Layers.dstOf E := rfl

variable (m : (ℓ : Loc nD τ sig) → Buf (Elt Ideal) ℓ) (ρ : Dev nD → PrngReg)

/-- The kernel program's first hidden array is the reference's. -/
theorem hidden1_ref (c : Dev nD) :
    hidden1 m c = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.ReferenceIdeal.Layers.first_layer, ← src_eq, ← dst_eq]
  unfold hidden1
  exact actMul_eq_act _ _ _ _ _ _ (divisorOf (Boundary.dstOf (m ((c.tc : Thread nD τ).loc main_arg1)))) (m ((c.tc : Thread nD τ).loc main_arg3))
    (fun p d => recipOf_apply _ p d) (fun p => divisorOf_ne_zero _ p) (fun f => rowOf_apply _ f)

/-- The second hidden arrays agree. -/
theorem hidden2_ref (c : Dev nD) :
    hidden2 m c = val_main_v55 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [Cert.ReferenceIdeal.Layers.second_layer, ← hidden1_ref m c, ← src_eq, ← dst_eq]
  unfold hidden2
  exact actMul_eq_act _ _ _ _ _ _ (divisorOf (Boundary.dstOf (m ((c.tc : Thread nD τ).loc main_arg1)))) (m ((c.tc : Thread nD τ).loc main_arg6))
    (fun p d => recipOf_apply _ p d) (fun p => divisorOf_ne_zero _ p) (fun f => rowOf_apply _ f)

/-- THE RESULT ARRAYS AGREE: what the kernel program leaves in its result buffer is the reference's result term of the
    same argument arrays. -/
theorem result_ref (c : Dev nD) :
    W6 m ρ c (Proc.devRef .tc main_v51)
      = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [result_eq, Cert.ReferenceIdeal.Layers.third_layer, ← hidden2_ref m c, ← src_eq, ← dst_eq]
  exact linMul_eq_lin _ _ _ _ _ _ (divisorOf (Boundary.dstOf (m ((c.tc : Thread nD τ).loc main_arg1)))) (m ((c.tc : Thread nD τ).loc main_arg9))
    (fun p d => recipOf_apply _ p d) (fun p => divisorOf_ne_zero _ p) (fun f => rowOf_apply _ f)

end Cert.KernelIdeal.Value

end
-- ==== Proof.lean ====
/-
  A three-layer neighbour-averaging network on a graph of 100000 nodes and 1600000 edges, 128 features wide: the kernel
  program against its reference, over the extended reals.

  A layer maps node features H to  mean(H) · Wl + bl + H · Wr,  where mean(H) at node p is the sum of the feature rows of
  p's in-neighbours divided by the larger of p's in-degree and one; the first two layers end in a maximum with zero.
  The reference divides the neighbour sums by that divisor.  The kernel program computes the reciprocal of the divisor
  once, spreads it over the features, and in each of its three pallas_calls multiplies the neighbour sums by it before the
  two matrix products; each call works on blocks of 5000 rows, twenty blocks tiling the node axis, and a row of a layer
  depends on the same row of its row arrays only, so a call's result array is the layer of the whole arrays it finds.
  On the extended reals the product with the reciprocal of y is the quotient by y for every y other than zero, and a
  maximum with one is not zero; changes of float format are the identity and matrix products are exact inner products.
  So the two programs compute the same function of the eleven argument arrays, layer by layer; no finiteness of any input
  is used.  The gather and scatter-add that form the neighbour sums, and the in-degree count, are the same host
  operations in both programs and are never opened.

  The three frame claims are the programs' runs with the results dropped; the idealization rewrote nothing, so the
  kernel program's idealization is its own text.
-/
import proofs.«146334_j5463198401302_2_alg».proof.Defs
import proofs.«146334_j5463198401302_2_alg».proof.Proof.Gen.Kernel
import proofs.«146334_j5463198401302_2_alg».proof.Proof.Gen.KernelIdeal
import proofs.«146334_j5463198401302_2_alg».proof.Proof.Gen.ReferenceIdeal
import proofs.«146334_j5463198401302_2_alg».proof.Proof.Gen.ReferenceIdeal.Run
import proofs.«146334_j5463198401302_2_alg».proof.Proof.Gen.ReferenceIdeal.Read
import proofs.«146334_j5463198401302_2_alg».proof.Proof.Gen.Pre_finite_inputs
import proofs.«146334_j5463198401302_2_alg».proof.Proof.FrameK
import proofs.«146334_j5463198401302_2_alg».proof.Proof.FrameKI
import proofs.«146334_j5463198401302_2_alg».proof.Proof.KernelRun
import proofs.«146334_j5463198401302_2_alg».proof.Proof.KernelValue
import Idealize.ShloMosaic.Adequacy
import Idealize.ShloMosaic.Init

noncomputable section

namespace Cert.Proof

open Idealize.ShloMosaic Idealize.SL.Sem

/-- The word-level kernel program runs, and its argument arrays end as launched. -/
theorem frame_kernel : Cert.frame_Kernel := fun m ρ _ => Cert.Kernel.GenP.frame m ρ

/-- So does its idealization. -/
theorem frame_kernel_ideal : Cert.frame_KernelIdeal := fun m ρ _ => Cert.KernelIdeal.GenP.frame m ρ

/-- The reference runs: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the reference's result
    term of the kernel program's argument arrays. -/
theorem algebraic : Cert.algebraic_KernelIdeal_ReferenceIdeal := by
  intro m ρ m' ρ' _ hagree
  refine ⟨fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result_ref m ρ c), (h c).2⟩)
      (Cert.KernelIdeal.RunValue.run_named m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10⟩ := hagree c
    rw [(h c).1, Cert.ReferenceIdeal.Read.val_main_v80_eq, a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
